-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : IVec S4096 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  main_v3
-- ==== Kernel.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S256x128 : Shape := ⟨2, ![256, 128]⟩
abbrev S256x1 : Shape := ⟨2, ![256, 1]⟩
abbrev S128x4096 : Shape := ⟨2, ![128, 4096]⟩
abbrev S256x4096 : Shape := ⟨2, ![256, 4096]⟩
abbrev S256 : Shape := ⟨1, ![256]⟩

abbrev nBuf : Space → Nat
  | .hbm => 20
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .bf16⟩
  | .hbm, ⟨13, _⟩ => ⟨S4096x1, .i32⟩
  | .hbm, ⟨14, _⟩ => ⟨S1x4096, .i32⟩
  | .hbm, ⟨15, _⟩ => ⟨S4096x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S256x1, .i32⟩
  | .local _ .vmem, ⟨4, _⟩ => ⟨S256x1, .i32⟩
  | .local _ .vmem, ⟨5, _⟩ => ⟨S1x4096, .i32⟩
  | .local _ .vmem, ⟨6, _⟩ => ⟨S256x1, .f32⟩
  | .local _ .vmem, ⟨7, _⟩ => ⟨S256x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bitsLt_bf16_f32 : FTy.bits .bf16 < FTy.bits .f32
  shapeCasts_S4096_S4096x1 : S4096.ShapeCasts S4096x1
  shapeCasts_S4096_S1x4096 : S4096.ShapeCasts S1x4096
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  transposes_S4096x128_p1_0_S128x4096 : S4096x128.Transposes [1, 0] S128x4096
  iota_S256x1_d0_w32 : S256x1.Iotas .tc 32 [0]
  iota_S1x4096_d1_w32 : S1x4096.Iotas .tc 32 [1]
  broadcasts_S256x1_S256x4096 : S256x1.Broadcasts S256x4096
  broadcasts_S1x4096_S256x4096 : S1x4096.Broadcasts S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  natLt_1_32 : 1 < 32
  reduces_S256x4096_S256 : S256x4096.Reduces [1] S256
  shapeCasts_S256_S256x1 : S256.ShapeCasts S256x1
  reducesTo_S4096x1_S_d0_1 : S4096x1.ReducesTo [0, 1] S_
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x128.size a
  hwx0_0 : ∀ i : grid0.Coords, EltTy.bits .bf16 = 32 ∨ (Rect.block (s := S4096x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .i32 = 32 ∨ (Rect.block (s := S4096x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_v5) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S128x4096 : Shape := ⟨2, ![128, 4096]⟩
abbrev S4096x4096 : Shape := ⟨2, ![4096, 4096]⟩
abbrev S1x4096 : Shape := ⟨2, ![1, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S128x4096, .f32⟩
  | .hbm, ⟨13, _⟩ => ⟨S4096x4096, .f32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x1, .i32⟩
  | .hbm, ⟨47, _⟩ => ⟨S1x4096, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S4096x4096, .i1⟩
  | .hbm, ⟨52, _⟩ => ⟨S4096x4096, .i1⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_call2_cst : Ref sig .tc := ⟨.hbm, 27, rfl⟩
abbrev main_call2_v0 : Ref sig .tc := ⟨.hbm, 28, rfl⟩
abbrev main_call2_cst_0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_v6 : Ref sig .tc := ⟨.hbm, 35, rfl⟩
abbrev main_call2_cst_1 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_v15 : Ref sig .tc := ⟨.hbm, 41, rfl⟩
abbrev main_cst_2 : Ref sig .tc := ⟨.hbm, 42, rfl⟩
abbrev main_call3_v0 : Ref sig .tc := ⟨.hbm, 43, rfl⟩
abbrev main_call3_v1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_v32 : Ref sig .tc := ⟨.hbm, 65, rfl⟩
abbrev main_cst_7 : Ref sig .tc := ⟨.hbm, 66, rfl⟩
abbrev main_v33 : Ref sig .tc := ⟨.hbm, 67, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096_S_d0 : S4096.ReducesTo [0] S_
  dot_S4096x128_S128x4096_S4096x4096_1_0_0_1_n_n_wf : DotDims.WF S4096x128 S128x4096 S4096x4096 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.BitsBody.lean ====
/-
  The kernel region's body, once for every float instance.

  One grid point t (16 of them) handles rows 256·t … 256·t+255 of the 4096 × 4096 similarity matrix: the body
  loads a 256 × 128 block of the normalised features (window 0), ALL 4096 × 128 of them (window 1, the same array),
  the 256 row labels (window 2) and all 4096 column labels (window 3), and stores ONE 256 × 1 column of per-row
  losses (window 4).  What that column holds is a pure function of the four loaded blocks: `rowLoss`.
-/
import proofs.«161315_j57664230916706_2_alg».proof.Proof.Gen.Kernel.Launch
import proofs.«161315_j57664230916706_2_alg».proof.Proof.Gen.Kernel.Skeleton
import proofs.«161315_j57664230916706_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev W₀ (c : Dev nD) : Valuation τ sig (Elt F) := fun b => m ((c : Dev nD), b)
/-- after the five operations of the norm; -/
abbrev W₁ (c : Dev nD) : Valuation τ sig (Elt F) := StableHlo.after hostOps0 (W₀ m c)
/-- and after the eight that normalise, cast and reshape: the region's entry. -/
abbrev W₂ (c : Dev nD) : Valuation τ sig (Elt F) := StableHlo.after hostOps0_1 (W₁ m c)

/-- The same, read at a TensorCore reference. -/
abbrev V (c : Dev nD) (b : Ref sig .tc) : Buf (Elt F) ((c : Thread nD τ).loc b) := W₂ m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

abbrev rQ : Rect S256x128 := Rect.unit (s := S256x128) ![0, 0] S256x128.size inb_S256x128_S256x128_0_0
abbrev rK : Rect S4096x128 := Rect.unit (s := S4096x128) ![0, 0] S4096x128.size inb_S4096x128_S4096x128_0_0
abbrev rC : Rect S256x1 := Rect.unit (s := S256x1) ![0, 0] S256x1.size inb_S256x1_S256x1_0_0
abbrev rR : Rect S1x4096 := Rect.unit (s := S1x4096) ![0, 0] S1x4096.size inb_S1x4096_S1x4096_0_0

/-- The 256 per-row losses of one grid point, from the four loaded blocks. -/
def rowLoss (i : grid0.Coords) (x0 : Vec F S256x128 .bf16) (x1 : Vec F S4096x128 .bf16) (x2 : Vec F S256x1 .i32) (x3 : Vec F S1x4096 .i32) :
    Vec F S256x1 .f32 :=
  View.canon [⟨rC, k0_pay1 (k0_pay4 i (View.ld x2 rC) (View.ld x3 rR)) (k0_pay5 i (View.ld x0 rQ) (View.ld x1 rK) (View.ld x2 rC) (View.ld x3 rR))⟩]

/-- The one store covers the whole column. -/
theorem cover_col (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

set_option maxHeartbeats 1000000 in
/-- The body on whole staging memrefs, the four inputs' at read contents and the output's at anything, runs to the
    continuation with the inputs as they were and the output at `rowLoss` of them. -/
theorem sound_kernel (c : Dev nD) (E : Set ℕ) (i : grid0.Coords)
    (arg1 : Memref sig .tc .vmem S256x128 .bf16) (harg1 : arg1.IsWhole) (arg2 : Memref sig .tc .vmem S4096x128 .bf16) (harg2 : arg2.IsWhole)
    (arg3 : Memref sig .tc .vmem S256x1 .i32) (harg3 : arg3.IsWhole) (arg4 : Memref sig .tc .vmem S1x4096 .i32) (harg4 : arg4.IsWhole)
    (arg5 : Memref sig .tc .vmem S256x1 .f32) (harg5 : arg5.IsWhole)
    (x0 : Vec F S256x128 .bf16) (x1 : Vec F S4096x128 .bf16) (x2 : Vec F S256x1 .i32) (x3 : Vec F S1x4096 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (rowLoss i x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_col _)

/-! ## The pipeline's proof data -/

/-- The proof data of the one pipeline on core `c`: the arrays as the region finds them; after the body at point `t`
    each input's buffer at its block and the output's at `rowLoss` of the four blocks; the scoped rest and the generator
    register untouched; nothing owed.  The array of normalised features is read through TWO windows, the row block and
    the whole matrix: each holds one half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowLoss (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => PosShare.left fullShare
    | ⟨1, _⟩ => PosShare.right fullShare
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = rowLoss (grid0.coords t) (iblk m c 0 t) (iblk m c 1 t) (iblk m c 2 t) (iblk m c 3 t) := by dsimp only [dats]

/-- An input window's current staging buffer holds its block at every point, fetched there or not: the body leaves the
    block in place, and an unfetched window's index has not moved. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Run

end
-- ==== Proof.BitsLaunch.lean ====
/-
  The run of the whole program, once for every float instance: the five operations of the norm, the eight that
  normalise, cast and reshape, the kernel region over its 16 row blocks, and the four that sum the 4096 per-row losses
  and divide by 4096.  Every weakly fair execution terminates without a fault, and in the final memory every buffer the
  program names outside the region's staging holds what these lines compute from the launch memory: `W₄`.

  The region reads the array of normalised features through two windows at once (a 256-row block, and all of it); it
  holds one half of the array's share for each, and puts the halves together again when it ends.
-/
import proofs.«161315_j57664230916706_2_alg».proof.Proof.BitsBody

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the region and at the end -/

/-- The column of per-row losses the region leaves in its result array. -/
def outArr (c : Dev nD) : Buf (Elt F) ((c : Thread nD τ).loc main_v8) := (dats m 0 c).arrAt 4 cfg0.N

/-- Core `c`'s buffers when the region is left: its result array at `outArr`, every other as the region found it; -/
def W₃ (c : Dev nD) : Valuation τ sig (Elt F) := fun b =>
  if h : Proc.devRef .tc main_v8 = b then cast (congrArg (fun b' : DevRef τ sig => b'.ty.Contents (Elt F)) h) (outArr m c) else W₂ m c b
/-- and at the end. -/
abbrev W₄ (c : Dev nD) : Valuation τ sig (Elt F) := StableHlo.after hostOps1 (W₃ m c)

theorem W₃_out (c : Dev nD) : W₃ m c (Proc.devRef .tc main_v8) = outArr m c := by
  unfold W₃; rw [dif_pos rfl]; rfl

theorem W₃_ne (c : Dev nD) (b : Ref sig .tc) (hb : main_v8 ≠ b) : W₃ m c (Proc.devRef .tc b) = W₂ m c (Proc.devRef .tc b) := by
  unfold W₃; rw [dif_neg]; exact fun e => hb (Proc.devRef_injective _ e)

/-! ## The arrays of the region, listed -/

/-- The four buffers behind the five windows. -/
theorem arrBufs_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v5) ↦{fullShare} X main_v5) ∗ (((c : Thread nD τ).loc main_v6) ↦{fullShare} X main_v6)
          ∗ (((c : Thread nD τ).loc main_v7) ↦{fullShare} X main_v7) ∗ (((c : Thread nD τ).loc main_v8) ↦{fullShare} X main_v8)) := by
  unfold Pipeline.arrBufs
  exact bigSep_eq_bigSepL_of_eq [main_v5, main_v6, main_v7, main_v8] (by decide) (by decide) _

/-- The five windows' arrays as the pipeline holds them: the features' array at one half share per window. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v5) ↦{PosShare.left fullShare} G 0) ∗ (((c : Thread nD τ).loc main_v5) ↦{PosShare.right fullShare} G 1)
          ∗ (((c : Thread nD τ).loc main_v6) ↦{fullShare} G 2) ∗ (((c : Thread nD τ).loc main_v7) ↦{fullShare} G 3)
          ∗ (((c : Thread nD τ).loc main_v8) ↦{fullShare} G 4)) := by
  have h : ((dats m 0 c).arrays G : sProp 𝕄)
      = bigSep Finset.univ fun w : Fin 5 => (((c : Thread nD τ).loc (Pipeline.arrRef spec0 w)) ↦{(dats m 0 c).share w} G w : sProp 𝕄) := by
    unfold Dat.arrays
    exact bigSep_congr fun w _ => by rw [(arr_whole0 w).set_eq_univ]
  have h0 : (dats m 0 c).share 0 = PosShare.left fullShare := rfl
  have h1 : (dats m 0 c).share 1 = PosShare.right fullShare := rfl
  have h2 : (dats m 0 c).share 2 = fullShare := rfl
  have h3 : (dats m 0 c).share 3 = fullShare := rfl
  have h4 : (dats m 0 c).share 4 = fullShare := rfl
  rw [h, bigSep_W0, h0, h1, h2, h3, h4]

/-- What the region hands back is the four buffers at the exit valuation: the two half shares of the features' array,
    never written, are one full share again; the result array holds the 16 columns written back. -/
theorem arrays_exit (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W₃ m c b) := by
  rw [arrays_eq, arrBufs_eq, (dats m 0 c).arrAt_in 0 rfl, (dats m 0 c).arrAt_in 1 rfl, (dats m 0 c).arrAt_in 2 rfl, (dats m 0 c).arrAt_in 3 rfl,
    A_eq, A_eq, A_eq, A_eq, W₃_ne m c main_v5 (by decide), W₃_ne m c main_v6 (by decide), W₃_ne m c main_v7 (by decide), W₃_out]
  have hjoin := (pointsTo_share (Ix := Unit) (Name := ℕ) (U := UR sig nD τ) (Lvl := ℕ) (Val := Elt F) (ℓ := (c : Thread nD τ).loc main_v5) (I := Finset.univ)
    (f := V m c main_v5) (PosShare.mem_left_op_right fullShare)).2
  iintro ⟨H5l, H5r, H6, H7, H8⟩
  ihave H5 := hjoin $$ [H5l H5r]
  · isplitl [H5l] <;> iassumption
  isplitl [H5]; · iexact H5
  isplitl [H6]; · iexact H6
  isplitl [H7]; · iexact H7
  iexact H8

/-- The four buffers at the entry valuation are the pipeline's arrays at their entry contents. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, arrBufs_eq]
  have hsplit := (pointsTo_share (Ix := Unit) (Name := ℕ) (U := UR sig nD τ) (Lvl := ℕ) (Val := Elt F) (ℓ := (c : Thread nD τ).loc main_v5) (I := Finset.univ)
    (f := V m c main_v5) (PosShare.mem_left_op_right fullShare)).1
  iintro ⟨H5, H6, H7, H8⟩
  ihave H55 := hsplit $$ H5
  icases H55 with ⟨H5l, H5r⟩
  isplitl [H5l]; · iexact H5l
  isplitl [H5r]; · iexact H5r
  isplitl [H6]; · iexact H6
  isplitl [H7]; · iexact H7
  iexact H8

/-- The exit valuation holds: the four buffers and every buffer the region bypassed. -/
theorem exit_held (c : Dev nD) :
    iprop(Pipeline.arrBufs (Ix := Unit) (Name := ℕ) (U := UR sig nD τ) (Lvl := ℕ) spec0 c (fun b => W₃ m c b)
        ∗ Pipeline.unscopedRest (Ix := Unit) (Name := ℕ) (U := UR sig nD τ) (Lvl := ℕ) spec0 c (V m c))
      ⊢ (StableHlo.held (c : Thread nD τ) (Pipeline.ucRefs τ sig) (W₃ m c) : sProp 𝕄) := by
  rw [← Pipeline.unscopedBufs_held c (W₃ m c), Pipeline.unscopedBufs_split₀ cfgs 0 winFacts₀0.arr_unscoped c (fun b => W₃ m c b)]
  refine sep_mono .rfl (Entails.of_eq ?_)
  unfold Pipeline.unscopedRest
  exact bigSep_congr fun b hb => by
    beta_reduce
    rw [W₃_ne m c b fun e => (Finset.mem_sdiff.mp hb).2 (Finset.mem_image.mpr ⟨4, Finset.mem_univ _, e⟩)]

/-! ## The launch: the program as four segments -/

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers from segment to segment: the core owes nothing. -/
abbrev R (c : Dev nD) : sProp 𝕄 := iprop(∃ W, owes (c : Thread nD τ) (0 : CellTallies nD τ sig Unit) W)

/-- The five operations of the norm. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (W₀ m) R

/-- The eight that normalise, cast and reshape. -/
def seg1 : Pipeline.HostSeg (Name := ℕ) (U := UR sig nD τ) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    (by intro _ h; (repeat (cases h with | head => rfl | tail _ h => ?_)); exact nomatch h) (W₁ m) R

/-- The four that sum the losses and divide. -/
def seg2 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₃ m) R

set_option backward.isDefEq.respectTransparency.types false in
/-- The region: entered from the buffers the thirteen operations left, the four arrays into the pipeline (the features'
    array split in two), every other buffer bypassing; left with the result array rewritten. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W₂ m c) ∗ R c)
  post c := iprop(StableHlo.held (c : Thread nD τ) (Pipeline.ucRefs τ sig) (W₃ m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (W₂ m c) = unscopedBufs c (V m c) from (Pipeline.unscopedBufs_held c _).symm,
      Pipeline.unscopedBufs_split₀ cfgs 0 winFacts₀0.arr_unscoped c (V m c)]
    have hent := arrays_entry m c
    iintro ⟨⟨⟨Hb, Hrest⟩, HO⟩, -, -⟩
    ihave Ha := hent $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iassumption
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iassumption
  hexit c := by
    have hex := arrays_exit m c
    have hheld := exit_held m c
    iintro ⟨Ha, HO, -, Hrest⟩
    ihave Hb := hex $$ Ha
    ihave Hh := hheld $$ [Hb Hrest]
    · isplitl [Hb] <;> iassumption
    imodintro
    isplitl [Hh]; · iexact Hh
    unfold Pipeline.Dat.owesAt Pipeline.owesWithin
    icases HO with ⟨%W, -, HO⟩; iexists W; iexact HO

/-- The program as the list of the four. -/
abbrev segs : List (Pipeline.Seg (pcfgs (F := F)) adm (dats m) () defs₀ 𝒱₀ L lv) :=
  [.host (seg0 m), .host (seg1 m), .region (reg0 m), .host (seg2 m)]

/-- The launch element: the pipeline library's at the staging cells. -/
def u₀ : UR sig nD τ := initOf (Pipeline.cells cfgs cellOf_inj) (Pipeline.launchToks cfgs cellOf_inj)

set_option backward.isDefEq.respectTransparency.types false in
/-- At the compiled mesh, for any float values, from any memory with zero counters: every weakly fair execution of the
    program on the TensorCores terminates, nothing faulting, and in every final memory each unscoped buffer holds what
    the seventeen operations and the region compute from the launch memory. -/
theorem run_main : θ_run defs (onTc (τ := τ) (main (F := F))) (s₀ m ρ)
    (fun r => ∀ c : Dev nD, ∀ b ∈ Pipeline.ucRefs τ sig, r.2.mem ((c : Dev nD), b) = W₄ m c b) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W₀ m c) ∗ R c))
    (Tₙ := fun c => StableHlo.held (c : Thread nD τ) (Pipeline.ucRefs τ sig) (W₄ m c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W₀ m c) from Pipeline.unscopedBufs_held c (W₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = W₄ m c b)
    (hfin := fun c s' => by
      unfold StableHlo.held
      have hread := pointsTo_read_all (Ix := Unit) (Name := ℕ) (U := UR sig nD τ) (Lvl := ℕ) (Pipeline.ucRefs τ sig) (fun b => ((c : Dev nD), b)) (W₄ m c) s'
      iintro ⟨Hh, HSI⟩
      ihave Hr := hread $$ [Hh HSI]
      · isplitl [Hh] <;> iassumption
      icases Hr with ⟨%h, HSI⟩
      imodintro
      isplitr; · ipureintro; exact h
      iexact HSI)
    (hQ := fun _ h => h)

end Cert.Kernel.Run

end
-- ==== Proof.BitsFrame.lean ====
/-
  What the run says of the three buffers the claims speak of: no operation writes the two argument arrays, so each ends
  as launched; the result is the quotient by 4096 of the sum of the region's column of per-row losses.
-/
import proofs.«161315_j57664230916706_2_alg».proof.Proof.BitsLaunch

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable {F : FTy → Type} [FloatOps F]

variable (m : (ℓ : Loc nD τ sig) → Buf (Elt F) ℓ) (ρ : Dev nD → PrngReg)

/-- An unscoped TensorCore reference is among the buffers the run accounts for. -/
theorem mem_uc (b : Ref sig .tc) (h : (Proc.devRef (τ := τ) .tc b).isScoped = false) :
    Proc.devRef (τ := τ) .tc b ∈ Pipeline.ucRefs τ sig :=
  Finset.mem_filter.mpr ⟨StableHlo.devRef_mem_tcRefs _, fun h' => Bool.false_ne_true (h.symm.trans h')⟩

/-- No operation writes the features. -/
theorem W₄_arg0 (c : Dev nD) : W₄ m c (Proc.devRef .tc main_arg0) = m ((c : Dev nD), Proc.devRef .tc main_arg0) := by
  show StableHlo.after hostOps1 (W₃ m c) (Proc.devRef .tc main_arg0) = _
  after_results
  rw [W₃_ne m c main_arg0 (by decide)]
  show StableHlo.after hostOps0_1 (StableHlo.after hostOps0 (W₀ m c)) (Proc.devRef .tc main_arg0) = _
  after_results

/-- No operation writes the labels. -/
theorem W₄_arg1 (c : Dev nD) : W₄ m c (Proc.devRef .tc main_arg1) = m ((c : Dev nD), Proc.devRef .tc main_arg1) := by
  show StableHlo.after hostOps1 (W₃ m c) (Proc.devRef .tc main_arg1) = _
  after_results
  rw [W₃_ne m c main_arg1 (by decide)]
  show StableHlo.after hostOps0_1 (StableHlo.after hostOps0 (W₀ m c)) (Proc.devRef .tc main_arg1) = _
  after_results

/-- The result: the sum of the column of per-row losses, divided by 4096. -/
theorem W₄_result (c : Dev nD) :
    W₄ m c (Proc.devRef .tc main_v10)
      = Host.divf (Host.reduceAdd (outArr m c : FVec F S4096x1 .f32) (constant S_ .f32 0x00000000#32) reducesTo_S4096x1_S_d0_1 h_S_)
          (constant S_ .f32 0x45800000#32) := by
  show StableHlo.after hostOps1 (W₃ m c) (Proc.devRef .tc main_v10) = _
  after_results
  rw [W₃_out]

/-- The program runs to the end, faults nowhere and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 rfl)).trans (W₄_arg0 m c), (h c _ (mem_uc main_arg1 rfl)).trans (W₄_arg1 m c)⟩)
    (run_main m ρ)

/-- The same run, read at the result as well. -/
theorem run_value : θ_run defs (onTc (τ := τ) (main (F := F))) ⟨m, fun _ => 0, ρ⟩ (fun r => ∀ c : Dev nD,
      r.2.mem ((c.tc : Thread nD τ).loc main_v10) = W₄ m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c _ (mem_uc main_v10 rfl), (h c _ (mem_uc main_arg0 rfl)).trans (W₄_arg0 m c),
      (h c _ (mem_uc main_arg1 rfl)).trans (W₄_arg1 m c)⟩)
    (run_main m ρ)

end Cert.Kernel.Run

end
-- ==== Proof.IdealBody.lean ====
/-
  The kernel region's body, once for every float instance.

  One grid point t (16 of them) handles rows 256·t … 256·t+255 of the 4096 × 4096 similarity matrix: the body
  loads a 256 × 128 block of the normalised features (window 0), ALL 4096 × 128 of them (window 1, the same array),
  the 256 row labels (window 2) and all 4096 column labels (window 3), and stores ONE 256 × 1 column of per-row
  losses (window 4).  What that column holds is a pure function of the four loaded blocks: `rowLoss`.
-/
import proofs.«161315_j57664230916706_2_alg».proof.Proof.Gen.KernelIdeal.Launch
import proofs.«161315_j57664230916706_2_alg».proof.Proof.Gen.KernelIdeal.Skeleton
import proofs.«161315_j57664230916706_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev W₀ (c : Dev nD) : Valuation τ sig (Elt F) := fun b => m ((c : Dev nD), b)
/-- after the five operations of the norm; -/
abbrev W₁ (c : Dev nD) : Valuation τ sig (Elt F) := StableHlo.after hostOps0 (W₀ m c)
/-- and after the eight that normalise, cast and reshape: the region's entry. -/
abbrev W₂ (c : Dev nD) : Valuation τ sig (Elt F) := StableHlo.after hostOps0_1 (W₁ m c)

/-- The same, read at a TensorCore reference. -/
abbrev V (c : Dev nD) (b : Ref sig .tc) : Buf (Elt F) ((c : Thread nD τ).loc b) := W₂ m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

abbrev rQ : Rect S256x128 := Rect.unit (s := S256x128) ![0, 0] S256x128.size inb_S256x128_S256x128_0_0
abbrev rK : Rect S4096x128 := Rect.unit (s := S4096x128) ![0, 0] S4096x128.size inb_S4096x128_S4096x128_0_0
abbrev rC : Rect S256x1 := Rect.unit (s := S256x1) ![0, 0] S256x1.size inb_S256x1_S256x1_0_0
abbrev rR : Rect S1x4096 := Rect.unit (s := S1x4096) ![0, 0] S1x4096.size inb_S1x4096_S1x4096_0_0

/-- The 256 per-row losses of one grid point, from the four loaded blocks. -/
def rowLoss (i : grid0.Coords) (x0 : Vec F S256x128 .bf16) (x1 : Vec F S4096x128 .bf16) (x2 : Vec F S256x1 .i32) (x3 : Vec F S1x4096 .i32) :
    Vec F S256x1 .f32 :=
  View.canon [⟨rC, k0_pay1 (k0_pay4 i (View.ld x2 rC) (View.ld x3 rR)) (k0_pay5 i (View.ld x0 rQ) (View.ld x1 rK) (View.ld x2 rC) (View.ld x3 rR))⟩]

/-- The one store covers the whole column. -/
theorem cover_col (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

set_option maxHeartbeats 1000000 in
/-- The body on whole staging memrefs, the four inputs' at read contents and the output's at anything, runs to the
    continuation with the inputs as they were and the output at `rowLoss` of them. -/
theorem sound_kernel (c : Dev nD) (E : Set ℕ) (i : grid0.Coords)
    (arg1 : Memref sig .tc .vmem S256x128 .bf16) (harg1 : arg1.IsWhole) (arg2 : Memref sig .tc .vmem S4096x128 .bf16) (harg2 : arg2.IsWhole)
    (arg3 : Memref sig .tc .vmem S256x1 .i32) (harg3 : arg3.IsWhole) (arg4 : Memref sig .tc .vmem S1x4096 .i32) (harg4 : arg4.IsWhole)
    (arg5 : Memref sig .tc .vmem S256x1 .f32) (harg5 : arg5.IsWhole)
    (x0 : Vec F S256x128 .bf16) (x1 : Vec F S4096x128 .bf16) (x2 : Vec F S256x1 .i32) (x3 : Vec F S1x4096 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (rowLoss i x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_col _)

/-! ## The pipeline's proof data -/

/-- The proof data of the one pipeline on core `c`: the arrays as the region finds them; after the body at point `t`
    each input's buffer at its block and the output's at `rowLoss` of the four blocks; the scoped rest and the generator
    register untouched; nothing owed.  The array of normalised features is read through TWO windows, the row block and
    the whole matrix: each holds one half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowLoss (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => PosShare.left fullShare
    | ⟨1, _⟩ => PosShare.right fullShare
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = rowLoss (grid0.coords t) (iblk m c 0 t) (iblk m c 1 t) (iblk m c 2 t) (iblk m c 3 t) := by dsimp only [dats]

/-- An input window's current staging buffer holds its block at every point, fetched there or not: the body leaves the
    block in place, and an unfetched window's index has not moved. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Run

end
-- ==== Proof.IdealLaunch.lean ====
/-
  The run of the whole program, once for every float instance: the five operations of the norm, the eight that
  normalise, cast and reshape, the kernel region over its 16 row blocks, and the four that sum the 4096 per-row losses
  and divide by 4096.  Every weakly fair execution terminates without a fault, and in the final memory every buffer the
  program names outside the region's staging holds what these lines compute from the launch memory: `W₄`.

  The region reads the array of normalised features through two windows at once (a 256-row block, and all of it); it
  holds one half of the array's share for each, and puts the halves together again when it ends.
-/
import proofs.«161315_j57664230916706_2_alg».proof.Proof.IdealBody

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers after the region and at the end -/

/-- The column of per-row losses the region leaves in its result array. -/
def outArr (c : Dev nD) : Buf (Elt F) ((c : Thread nD τ).loc main_v8) := (dats m 0 c).arrAt 4 cfg0.N

/-- Core `c`'s buffers when the region is left: its result array at `outArr`, every other as the region found it; -/
def W₃ (c : Dev nD) : Valuation τ sig (Elt F) := fun b =>
  if h : Proc.devRef .tc main_v8 = b then cast (congrArg (fun b' : DevRef τ sig => b'.ty.Contents (Elt F)) h) (outArr m c) else W₂ m c b
/-- and at the end. -/
abbrev W₄ (c : Dev nD) : Valuation τ sig (Elt F) := StableHlo.after hostOps1 (W₃ m c)

theorem W₃_out (c : Dev nD) : W₃ m c (Proc.devRef .tc main_v8) = outArr m c := by
  unfold W₃; rw [dif_pos rfl]; rfl

theorem W₃_ne (c : Dev nD) (b : Ref sig .tc) (hb : main_v8 ≠ b) : W₃ m c (Proc.devRef .tc b) = W₂ m c (Proc.devRef .tc b) := by
  unfold W₃; rw [dif_neg]; exact fun e => hb (Proc.devRef_injective _ e)

/-! ## The arrays of the region, listed -/

/-- The four buffers behind the five windows. -/
theorem arrBufs_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v5) ↦{fullShare} X main_v5) ∗ (((c : Thread nD τ).loc main_v6) ↦{fullShare} X main_v6)
          ∗ (((c : Thread nD τ).loc main_v7) ↦{fullShare} X main_v7) ∗ (((c : Thread nD τ).loc main_v8) ↦{fullShare} X main_v8)) := by
  unfold Pipeline.arrBufs
  exact bigSep_eq_bigSepL_of_eq [main_v5, main_v6, main_v7, main_v8] (by decide) (by decide) _

/-- The five windows' arrays as the pipeline holds them: the features' array at one half share per window. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v5) ↦{PosShare.left fullShare} G 0) ∗ (((c : Thread nD τ).loc main_v5) ↦{PosShare.right fullShare} G 1)
          ∗ (((c : Thread nD τ).loc main_v6) ↦{fullShare} G 2) ∗ (((c : Thread nD τ).loc main_v7) ↦{fullShare} G 3)
          ∗ (((c : Thread nD τ).loc main_v8) ↦{fullShare} G 4)) := by
  have h : ((dats m 0 c).arrays G : sProp 𝕄)
      = bigSep Finset.univ fun w : Fin 5 => (((c : Thread nD τ).loc (Pipeline.arrRef spec0 w)) ↦{(dats m 0 c).share w} G w : sProp 𝕄) := by
    unfold Dat.arrays
    exact bigSep_congr fun w _ => by rw [(arr_whole0 w).set_eq_univ]
  have h0 : (dats m 0 c).share 0 = PosShare.left fullShare := rfl
  have h1 : (dats m 0 c).share 1 = PosShare.right fullShare := rfl
  have h2 : (dats m 0 c).share 2 = fullShare := rfl
  have h3 : (dats m 0 c).share 3 = fullShare := rfl
  have h4 : (dats m 0 c).share 4 = fullShare := rfl
  rw [h, bigSep_W0, h0, h1, h2, h3, h4]

/-- What the region hands back is the four buffers at the exit valuation: the two half shares of the features' array,
    never written, are one full share again; the result array holds the 16 columns written back. -/
theorem arrays_exit (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W₃ m c b) := by
  rw [arrays_eq, arrBufs_eq, (dats m 0 c).arrAt_in 0 rfl, (dats m 0 c).arrAt_in 1 rfl, (dats m 0 c).arrAt_in 2 rfl, (dats m 0 c).arrAt_in 3 rfl,
    A_eq, A_eq, A_eq, A_eq, W₃_ne m c main_v5 (by decide), W₃_ne m c main_v6 (by decide), W₃_ne m c main_v7 (by decide), W₃_out]
  have hjoin := (pointsTo_share (Ix := Unit) (Name := ℕ) (U := UR sig nD τ) (Lvl := ℕ) (Val := Elt F) (ℓ := (c : Thread nD τ).loc main_v5) (I := Finset.univ)
    (f := V m c main_v5) (PosShare.mem_left_op_right fullShare)).2
  iintro ⟨H5l, H5r, H6, H7, H8⟩
  ihave H5 := hjoin $$ [H5l H5r]
  · isplitl [H5l] <;> iassumption
  isplitl [H5]; · iexact H5
  isplitl [H6]; · iexact H6
  isplitl [H7]; · iexact H7
  iexact H8

/-- The four buffers at the entry valuation are the pipeline's arrays at their entry contents. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, arrBufs_eq]
  have hsplit := (pointsTo_share (Ix := Unit) (Name := ℕ) (U := UR sig nD τ) (Lvl := ℕ) (Val := Elt F) (ℓ := (c : Thread nD τ).loc main_v5) (I := Finset.univ)
    (f := V m c main_v5) (PosShare.mem_left_op_right fullShare)).1
  iintro ⟨H5, H6, H7, H8⟩
  ihave H55 := hsplit $$ H5
  icases H55 with ⟨H5l, H5r⟩
  isplitl [H5l]; · iexact H5l
  isplitl [H5r]; · iexact H5r
  isplitl [H6]; · iexact H6
  isplitl [H7]; · iexact H7
  iexact H8

/-- The exit valuation holds: the four buffers and every buffer the region bypassed. -/
theorem exit_held (c : Dev nD) :
    iprop(Pipeline.arrBufs (Ix := Unit) (Name := ℕ) (U := UR sig nD τ) (Lvl := ℕ) spec0 c (fun b => W₃ m c b)
        ∗ Pipeline.unscopedRest (Ix := Unit) (Name := ℕ) (U := UR sig nD τ) (Lvl := ℕ) spec0 c (V m c))
      ⊢ (StableHlo.held (c : Thread nD τ) (Pipeline.ucRefs τ sig) (W₃ m c) : sProp 𝕄) := by
  rw [← Pipeline.unscopedBufs_held c (W₃ m c), Pipeline.unscopedBufs_split₀ cfgs 0 winFacts₀0.arr_unscoped c (fun b => W₃ m c b)]
  refine sep_mono .rfl (Entails.of_eq ?_)
  unfold Pipeline.unscopedRest
  exact bigSep_congr fun b hb => by
    beta_reduce
    rw [W₃_ne m c b fun e => (Finset.mem_sdiff.mp hb).2 (Finset.mem_image.mpr ⟨4, Finset.mem_univ _, e⟩)]

/-! ## The launch: the program as four segments -/

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers from segment to segment: the core owes nothing. -/
abbrev R (c : Dev nD) : sProp 𝕄 := iprop(∃ W, owes (c : Thread nD τ) (0 : CellTallies nD τ sig Unit) W)

/-- The five operations of the norm. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (W₀ m) R

/-- The eight that normalise, cast and reshape. -/
def seg1 : Pipeline.HostSeg (Name := ℕ) (U := UR sig nD τ) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    (by intro _ h; (repeat (cases h with | head => rfl | tail _ h => ?_)); exact nomatch h) (W₁ m) R

/-- The four that sum the losses and divide. -/
def seg2 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₃ m) R

set_option backward.isDefEq.respectTransparency.types false in
/-- The region: entered from the buffers the thirteen operations left, the four arrays into the pipeline (the features'
    array split in two), every other buffer bypassing; left with the result array rewritten. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W₂ m c) ∗ R c)
  post c := iprop(StableHlo.held (c : Thread nD τ) (Pipeline.ucRefs τ sig) (W₃ m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (W₂ m c) = unscopedBufs c (V m c) from (Pipeline.unscopedBufs_held c _).symm,
      Pipeline.unscopedBufs_split₀ cfgs 0 winFacts₀0.arr_unscoped c (V m c)]
    have hent := arrays_entry m c
    iintro ⟨⟨⟨Hb, Hrest⟩, HO⟩, -, -⟩
    ihave Ha := hent $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iassumption
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iassumption
  hexit c := by
    have hex := arrays_exit m c
    have hheld := exit_held m c
    iintro ⟨Ha, HO, -, Hrest⟩
    ihave Hb := hex $$ Ha
    ihave Hh := hheld $$ [Hb Hrest]
    · isplitl [Hb] <;> iassumption
    imodintro
    isplitl [Hh]; · iexact Hh
    unfold Pipeline.Dat.owesAt Pipeline.owesWithin
    icases HO with ⟨%W, -, HO⟩; iexists W; iexact HO

/-- The program as the list of the four. -/
abbrev segs : List (Pipeline.Seg (pcfgs (F := F)) adm (dats m) () defs₀ 𝒱₀ L lv) :=
  [.host (seg0 m), .host (seg1 m), .region (reg0 m), .host (seg2 m)]

/-- The launch element: the pipeline library's at the staging cells. -/
def u₀ : UR sig nD τ := initOf (Pipeline.cells cfgs cellOf_inj) (Pipeline.launchToks cfgs cellOf_inj)

set_option backward.isDefEq.respectTransparency.types false in
/-- At the compiled mesh, for any float values, from any memory with zero counters: every weakly fair execution of the
    program on the TensorCores terminates, nothing faulting, and in every final memory each unscoped buffer holds what
    the seventeen operations and the region compute from the launch memory. -/
theorem run_main : θ_run defs (onTc (τ := τ) (main (F := F))) (s₀ m ρ)
    (fun r => ∀ c : Dev nD, ∀ b ∈ Pipeline.ucRefs τ sig, r.2.mem ((c : Dev nD), b) = W₄ m c b) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W₀ m c) ∗ R c))
    (Tₙ := fun c => StableHlo.held (c : Thread nD τ) (Pipeline.ucRefs τ sig) (W₄ m c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W₀ m c) from Pipeline.unscopedBufs_held c (W₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = W₄ m c b)
    (hfin := fun c s' => by
      unfold StableHlo.held
      have hread := pointsTo_read_all (Ix := Unit) (Name := ℕ) (U := UR sig nD τ) (Lvl := ℕ) (Pipeline.ucRefs τ sig) (fun b => ((c : Dev nD), b)) (W₄ m c) s'
      iintro ⟨Hh, HSI⟩
      ihave Hr := hread $$ [Hh HSI]
      · isplitl [Hh] <;> iassumption
      icases Hr with ⟨%h, HSI⟩
      imodintro
      isplitr; · ipureintro; exact h
      iexact HSI)
    (hQ := fun _ h => h)

end Cert.KernelIdeal.Run

end
-- ==== Proof.IdealFrame.lean ====
/-
  What the run says of the three buffers the claims speak of: no operation writes the two argument arrays, so each ends
  as launched; the result is the quotient by 4096 of the sum of the region's column of per-row losses.
-/
import proofs.«161315_j57664230916706_2_alg».proof.Proof.IdealLaunch

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable {F : FTy → Type} [FloatOps F] [Named F]

variable (m : (ℓ : Loc nD τ sig) → Buf (Elt F) ℓ) (ρ : Dev nD → PrngReg)

/-- An unscoped TensorCore reference is among the buffers the run accounts for. -/
theorem mem_uc (b : Ref sig .tc) (h : (Proc.devRef (τ := τ) .tc b).isScoped = false) :
    Proc.devRef (τ := τ) .tc b ∈ Pipeline.ucRefs τ sig :=
  Finset.mem_filter.mpr ⟨StableHlo.devRef_mem_tcRefs _, fun h' => Bool.false_ne_true (h.symm.trans h')⟩

/-- No operation writes the features. -/
theorem W₄_arg0 (c : Dev nD) : W₄ m c (Proc.devRef .tc main_arg0) = m ((c : Dev nD), Proc.devRef .tc main_arg0) := by
  show StableHlo.after hostOps1 (W₃ m c) (Proc.devRef .tc main_arg0) = _
  after_results
  rw [W₃_ne m c main_arg0 (by decide)]
  show StableHlo.after hostOps0_1 (StableHlo.after hostOps0 (W₀ m c)) (Proc.devRef .tc main_arg0) = _
  after_results

/-- No operation writes the labels. -/
theorem W₄_arg1 (c : Dev nD) : W₄ m c (Proc.devRef .tc main_arg1) = m ((c : Dev nD), Proc.devRef .tc main_arg1) := by
  show StableHlo.after hostOps1 (W₃ m c) (Proc.devRef .tc main_arg1) = _
  after_results
  rw [W₃_ne m c main_arg1 (by decide)]
  show StableHlo.after hostOps0_1 (StableHlo.after hostOps0 (W₀ m c)) (Proc.devRef .tc main_arg1) = _
  after_results

/-- The result: the sum of the column of per-row losses, divided by 4096. -/
theorem W₄_result (c : Dev nD) :
    W₄ m c (Proc.devRef .tc main_v10)
      = Host.divf (Host.reduceAdd (outArr m c : FVec F S4096x1 .f32) (constant S_ .f32 0x00000000#32) reducesTo_S4096x1_S_d0_1 h_S_)
          (constant S_ .f32 0x45800000#32) := by
  show StableHlo.after hostOps1 (W₃ m c) (Proc.devRef .tc main_v10) = _
  after_results
  rw [W₃_out]

/-- The program runs to the end, faults nowhere and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 rfl)).trans (W₄_arg0 m c), (h c _ (mem_uc main_arg1 rfl)).trans (W₄_arg1 m c)⟩)
    (run_main m ρ)

/-- The same run, read at the result as well. -/
theorem run_value : θ_run defs (onTc (τ := τ) (main (F := F))) ⟨m, fun _ => 0, ρ⟩ (fun r => ∀ c : Dev nD,
      r.2.mem ((c.tc : Thread nD τ).loc main_v10) = W₄ m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c _ (mem_uc main_v10 rfl), (h c _ (mem_uc main_arg0 rfl)).trans (W₄_arg0 m c),
      (h c _ (mem_uc main_arg1 rfl)).trans (W₄_arg1 m c)⟩)
    (run_main m ρ)

end Cert.KernelIdeal.Run

end
-- ==== Proof.Spec.lean ====
/-
  The two formulas, index by index, that the kernel and the reference compute at the ideal instance, as functions of the
  feature matrix X (4096 × 128 extended reals) and the label vector (4096 words).

  Row i of X is divided by max(‖X i‖, ε): `feat`.  The similarity of rows i and j is their inner product; on the diagonal
  it is replaced by −∞: `logit`.  With M i the maximum of row i of the logits and S i = Σ_j exp(logit i j − M i):

    the kernel's row loss is      −( Σ_j p i j · logit i j  −  (Σ_j p i j) · (M i + log S i) ) / (Σ_j p i j + ε′)
    the reference's row loss is    ( Σ_j (i = j ? 0 : (logit i j − M i) − log S i) · p i j ) / (Σ_j p i j + ε′)

  where p i j is 1 when rows i ≠ j carry the same label and 0 otherwise.  The kernel returns (Σ_i its row loss) / 4096,
  the reference (−Σ_i its row loss) / 4096.  The two are equal when X is finite: see the module that proves
  `kerLoss_eq_refLoss`.
-/
import Idealize.ShloMosaic.PureOps.Ideal
import Mathlib.Algebra.BigOperators.Fin
import Mathlib.Data.Finset.Fold

noncomputable section

namespace Cert.Spec

open Idealize.ShloMosaic
open scoped BigOperators

/-- The clamp of the norm, f32 9.99999996e-13. -/
abbrev epsNorm : EReal := Ideal.ofBits .f32 0x2B8CBCCC#32
/-- The guard of the positive count, f32 9.99999974e-6. -/
abbrev epsPos : EReal := Ideal.ofBits .f32 0x3727C5AC#32
/-- The number of rows, f32 4096. -/
abbrev rows : EReal := Ideal.ofBits .f32 0x45800000#32

variable (X : Fin 4096 → Fin 128 → EReal) (lab : Fin 4096 → BitVec 32)

/-- max(‖X i‖, ε). -/
def norm (i : Fin 4096) : EReal := max (Ideal.sqrt (∑ k, X i k * X i k)) epsNorm
/-- The normalised features. -/
def feat (i : Fin 4096) (k : Fin 128) : EReal := Ideal.div (X i k) (norm X i)
/-- Cosine similarity of rows i and j. -/
def sim (i j : Fin 4096) : EReal := ∑ k, feat X i k * feat X j k
/-- The similarity with the diagonal at −∞. -/
def logit (i j : Fin 4096) : EReal := if i = j then ⊥ else sim X i j
/-- The maximum of row i of the logits. -/
def rowMax (i : Fin 4096) : EReal := (Finset.univ : Finset (Fin 4096)).fold max ⊥ (logit X i)
/-- Σ_j exp(logit i j − rowMax i). -/
def expSum (i : Fin 4096) : EReal := ∑ j, Ideal.exp (logit X i j - rowMax X i)
/-- 1 when rows i ≠ j carry the same label, else 0. -/
def pos (i j : Fin 4096) : EReal := if lab i = lab j ∧ i ≠ j then 1 else 0
/-- The number of positives of row i. -/
def posCount (i : Fin 4096) : EReal := ∑ j, pos lab i j

/-- The kernel's loss of row i. -/
def kerRow (i : Fin 4096) : EReal :=
  0 - Ideal.div ((∑ j, pos lab i j * logit X i j) - posCount lab i * (rowMax X i + Ideal.log (expSum X i))) (posCount lab i + epsPos)
/-- The kernel's result. -/
def kerLoss : EReal := Ideal.div (∑ i, kerRow X lab i) rows

/-- The reference's loss of row i. -/
def refRow (i : Fin 4096) : EReal :=
  Ideal.div (∑ j, (if i = j then 0 else (logit X i j - rowMax X i) - Ideal.log (expSum X i)) * pos lab i j) (posCount lab i + epsPos)
/-- The reference's result. -/
def refLoss : EReal := Ideal.div (-(∑ i, refRow X lab i)) rows

end Cert.Spec

end
-- ==== Proof.SpecArgs.lean ====
/-
  The arguments of the two formulas, read off the two input arrays: the feature matrix as a function of a row and a
  column, the label vector as a function of a row.
-/
import proofs.«161315_j57664230916706_2_alg».proof.Proof.Spec
import Idealize.ShloMosaic.Lib.ValueIdx

noncomputable section

namespace Cert.Spec

open Idealize.ShloMosaic

/-- The features as a matrix of extended reals: entry (i, k) of the 4096 × 128 array. -/
def featOf (a0 : FVec Ideal ⟨2, ![4096, 128]⟩ .f32) : Fin 4096 → Fin 128 → EReal := fun i k => a0 (ValueIdx.ix2 i k)

/-- The labels as a vector of words: entry i of the 4096 array. -/
def labOf (a1 : IVec ⟨1, ![4096]⟩ 32) : Fin 4096 → BitVec 32 := fun i => a1 (ValueIdx.ix1 i)

end Cert.Spec

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.LibLogSoftmax.lean ====
/-
  A row-wise log-softmax of an `[a, b]` matrix along its last axis, read at an entry given by its coordinates, on the
  extended reals, for any extents, in the two spellings programs print:

      (x_{p q} − m_p) − log Σ_d exp (x_{p d} − m_p),     m_p the fold of `max` over row `p` from minus infinity.

  * The vector unit's: the row maximum and the row sum are one-axis reductions kept as a column (`[a] → [a, 1]`) and
    broadcast across the lanes (`vector_apply`).
  * The host's: the row maximum is a reduce from minus infinity, joined once more with minus infinity (which changes
    nothing), the row sum a reduce from zero; both are placed as a column and broadcast (`host_apply`).
  Also the keepdims forms used on the way: a vector placed as a column and spread over the lanes reads the vector
  at the row (`keep_vector_apply`, `keep_host_apply`).
-/
import proofs.«161315_j57664230916706_2_alg».proof.Proof.LibColumn
import proofs.«161315_j57664230916706_2_alg».proof.Proof.LibLastAxis
import proofs.«161315_j57664230916706_2_alg».proof.Proof.LibRowMax
import Idealize.ShloMosaic.Lib.ValueLayout
import Idealize.ShloMosaic.Lib.Pipeline.Value
import Idealize.ShloMosaic.PureOps.Ideal.Laws

noncomputable section

namespace Cert.LibLogSoftmax

open Idealize.ShloMosaic Idealize.ShloMosaic.ValueIdx Cert.LibColumn Cert.LibLastAxis Cert.LibRowMax

variable {α : Type} {a b : ℕ}

/-- A vector `[a]` cast to a column and broadcast over `b` lanes reads, at `(p, q)`, the vector at `p`. -/
theorem keep_vector_apply (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) :=
  (broadcastTo_a1_ab_apply _ hb p q).trans (shapeCast_a_a1_apply v hc p 0)

/-- The host's `[a]` vector placed as a column `[a, 1]` reads, at `(p, u)`, the vector at `p`. -/
theorem broadcastInDim_a_a1_apply (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's vector placed as a column and broadcast over `b` lanes reads, at `(p, q)`, the vector at `p`. -/
theorem keep_host_apply (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (broadcastInDim_a1_ab_apply _ h2 p q).trans (broadcastInDim_a_a1_apply v h1 p 0)

/-- The maximum from minus infinity. -/
theorem max_negInf (y : EReal) : max (Ideal.ofBits .f32 0xFF800000#32) y = y := by
  simp [Ideal.ofBits, Ideal.ieee]

/-- The vector unit's log-softmax along the last axis, at `(p, q)`. -/
theorem vector_apply (x : FVec Ideal ⟨2, ![a, b]⟩ .f32) (hr : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf x (broadcastTo ⟨2, ![a, b]⟩ (shapeCast ⟨2, ![a, 1]⟩
          (multiReduction .maximumf [1] ⟨1, ![a]⟩ x 0xFF800000#32 hr hφ hmax) hc) hb))
      (broadcastTo ⟨2, ![a, b]⟩ (log (shapeCast ⟨2, ![a, 1]⟩
          (multiReduction .add [1] ⟨1, ![a]⟩
            (exp (subf x (broadcastTo ⟨2, ![a, b]⟩ (shapeCast ⟨2, ![a, 1]⟩
              (multiReduction .maximumf [1] ⟨1, ![a]⟩ x 0xFF800000#32 hr hφ hmax) hc) hb)))
            0x00000000#32 hr hφ hadd) hc)) hb) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have e1 : ∀ d : Fin b, broadcastTo ⟨2, ![a, b]⟩ (shapeCast ⟨2, ![a, 1]⟩
        (multiReduction .maximumf [1] ⟨1, ![a]⟩ x 0xFF800000#32 hr hφ hmax) hc) hb (ix2 p d)
      = (Finset.univ : Finset (Fin b)).fold max (Ideal.ofBits .f32 0xFF800000#32) fun d => x (ix2 p d) := fun d =>
    (keep_vector_apply _ hc hb p d).trans (max_last_apply x 0xFF800000#32 hr hφ hmax p)
  have e2 : broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩
            (multiReduction .maximumf [1] ⟨1, ![a]⟩ x 0xFF800000#32 hr hφ hmax) hc) hb)))
          0x00000000#32 hr hφ hadd) hc)) hb (ix2 p q)
      = Ideal.log (∑ d : Fin b, Ideal.exp (x (ix2 p d)
          - (Finset.univ : Finset (Fin b)).fold max (Ideal.ofBits .f32 0xFF800000#32) fun d => x (ix2 p d))) := by
    refine (broadcastTo_a1_ab_apply _ hb p q).trans ?_
    show Ideal.log (shapeCast ⟨2, ![a, 1]⟩ _ hc (ix2 p (0 : Fin 1))) = _
    rw [shapeCast_a_a1_apply _ hc p 0]
    refine congrArg Ideal.log ((sum_last_apply _ hr hφ hadd p).trans (Finset.sum_congr rfl fun d _ => ?_))
    show Ideal.exp (x (ix2 p d) - _) = _
    rw [e1 d]
  show (x (ix2 p q) - _) - _ = _
  rw [e1 q, e2]

/-- The host's log-softmax along the last axis, at `(p, q)`. -/
theorem host_apply (x : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    subf (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu)))))
      (broadcastInDim ⟨2, ![a, b]⟩ ![0, 1] h2 (Host.log (broadcastInDim ⟨2, ![a, 1]⟩ ![0] h1
          (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) hr' hu))))))
            (constant (F := Ideal) ⟨0, ![]⟩ .f32 0x00000000#32) hr' hu)))) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have hlift : ∀ d : Fin b, hr.lift (ix1 p) d = ix2 p d := fun d =>
    funext fun c => Fin.ext (by match c with | ⟨0, _⟩ => rfl | ⟨1, _⟩ => rfl)
  have em : maximumf (broadcastInDim ⟨1, ![a]⟩ ![] h0 (constant (F := Ideal) ⟨0, ![]⟩ .f32 0xFF800000#32))
        (Host.reduce FloatOps.maximumf x (constant (F := Ideal) ⟨0, ![]⟩ .f32 0xFF800000#32) hr' hu) (ix1 p)
      = (Finset.univ : Finset (Fin b)).fold max (Ideal.ofBits .f32 0xFF800000#32) fun d => x (ix2 p d) := by
    show max (broadcastInDim ⟨1, ![a]⟩ ![] h0 (constant (F := Ideal) ⟨0, ![]⟩ .f32 0xFF800000#32) (ix1 p))
        (Host.reduce FloatOps.maximumf x (constant (F := Ideal) ⟨0, ![]⟩ .f32 0xFF800000#32) hr' hu (ix1 p)) = _
    rw [broadcastInDim_apply _ h0 _ (ix1 p) ix0 (fun ax => ax.elim0),
      Host.reduce_eq_fold_single FloatOps.maximumf x _ hr' hr hu (ix1 p)]
    show max (Ideal.ofBits .f32 0xFF800000#32)
        ((Finset.univ : Finset (Fin b)).fold max (Ideal.ofBits .f32 0xFF800000#32) (x ∘ hr.lift (ix1 p))) = _
    rw [max_negInf]
    exact congrArg (Finset.fold max (Ideal.ofBits .f32 0xFF800000#32) · Finset.univ) (funext fun d => congrArg x (hlift d))
  have e1 : ∀ d : Fin b, broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf x (constant (F := Ideal) ⟨0, ![]⟩ .f32 0xFF800000#32) hr' hu))) (ix2 p d)
      = (Finset.univ : Finset (Fin b)).fold max (Ideal.ofBits .f32 0xFF800000#32) fun d => x (ix2 p d) := fun d =>
    (keep_host_apply _ h1 h2 p d).trans em
  have e2 : broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu))))))
          (constant (F := Ideal) ⟨0, ![]⟩ .f32 0x00000000#32) hr' hu))) (ix2 p q)
      = Ideal.log (∑ d : Fin b, Ideal.exp (x (ix2 p d)
          - (Finset.univ : Finset (Fin b)).fold max (Ideal.ofBits .f32 0xFF800000#32) fun d => x (ix2 p d))) := by
    refine (broadcastInDim_a1_ab_apply _ h2 p q).trans ?_
    refine (congrArg Ideal.log (broadcastInDim_a_a1_apply _ h1 p 0)).trans ?_
    refine congrArg Ideal.log ?_
    simp only [Host.reduceAdd, Ideal.hostReduceAdd_def]
    rw [Ideal.hostReduceAdd_single hr' hr]
    show Ideal.ofBits .f32 0x00000000#32 + _ = _
    rw [Ideal.ofBits_zero_f32, zero_add]
    refine Finset.sum_congr rfl fun d _ => ?_
    rw [hlift d]
    show Ideal.exp (x (ix2 p d) - _) = _
    rw [e1 d]
  show (x (ix2 p q) - _) - _ = _
  rw [e1 q, e2]

end Cert.LibLogSoftmax

end
-- ==== Proof.IdealHost.lean ====
/-
  What the program's host operations around the kernel region compute, entry by entry, on the extended reals.

  Before the region: the feature array x is turned into x / max(√(Σ_k x²), ε) row by row, the sum of squares taken
  along each row from zero, placed as a column, its square root clamped below by the constant ε, and the column spread
  back over the 128 lanes; the change of format that follows is the identity on extended reals. The label vector is
  placed once as a column [4096, 1] and once as a row [1, 4096]; both placements keep the row-major order, so entry
  (i, 0) of the column and entry (0, j) of the row are entries i and j of the vector.
  After the region: the column of per-row losses is summed over both its axes from zero, which is the sum over its
  4096 rows, and divided by the constant 4096.
-/
import proofs.«161315_j57664230916706_2_alg».proof.Proof.IdealFrame
import proofs.«161315_j57664230916706_2_alg».proof.Proof.SpecArgs
import proofs.«161315_j57664230916706_2_alg».proof.Proof.LibColumn
import proofs.«161315_j57664230916706_2_alg».proof.Proof.LibRowMax
import proofs.«161315_j57664230916706_2_alg».proof.Proof.LibLogSoftmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)
open scoped BigOperators

/-! ## The stages, over any extents -/

section Stages
variable {a b : ℕ}

/-- The sum of squares along a row, from zero, read at row p. -/
theorem sumsq_apply (x : FVec Ideal ⟨2, ![a, b]⟩ .f32)
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel) (p : Fin a) :
    Host.reduceAdd (mulf x x) (constant (F := Ideal) ⟨0, ![]⟩ .f32 0x00000000#32) hr' hu (ix1 p)
      = ∑ k : Fin b, x (ix2 p k) * x (ix2 p k) := by
  simp only [Host.reduceAdd, Ideal.hostReduceAdd_def]
  rw [Ideal.hostReduceAdd_single hr' hr]
  show Ideal.ofBits .f32 0x00000000#32 + ∑ k : Fin b, (mulf x x) (hr.lift (ix1 p) k) = _
  rw [Ideal.ofBits_zero_f32, zero_add]
  refine Finset.sum_congr rfl fun k _ => ?_
  have hl : hr.lift (ix1 p) k = ix2 p k :=
    funext fun c => Fin.ext (by match c with | ⟨0, _⟩ => rfl | ⟨1, _⟩ => rfl)
  rw [hl]; rfl

/-- The normalised array, read at (p, q): the entry divided by the clamped norm of its row. -/
theorem normalise_apply (x : FVec Ideal ⟨2, ![a, b]⟩ .f32) (e : BitVec 32)
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel)
    (h1 : (⟨1, ![a]⟩ : Shape).BroadcastsInDim ⟨2, ![a, 1]⟩ ![0])
    (h0 : (⟨0, ![]⟩ : Shape).BroadcastsInDim ⟨2, ![a, 1]⟩ ![])
    (h2 : (⟨2, ![a, 1]⟩ : Shape).BroadcastsInDim ⟨2, ![a, b]⟩ ![0, 1])
    (hb : FTy.bits .bf16 < FTy.bits .f32) (p : Fin a) (q : Fin b) :
    (truncf .bf16 (Host.divf x (broadcastInDim (s := ⟨2, ![a, 1]⟩) ⟨2, ![a, b]⟩ ![0, 1] h2
        (maximumf (Host.sqrt (broadcastInDim (s := ⟨1, ![a]⟩) ⟨2, ![a, 1]⟩ ![0] h1
            (Host.reduceAdd (mulf x x) (constant (F := Ideal) ⟨0, ![]⟩ .f32 0x00000000#32) hr' hu)))
          (broadcastInDim (s := ⟨0, ![]⟩) ⟨2, ![a, 1]⟩ ![] h0 (constant (F := Ideal) ⟨0, ![]⟩ .f32 e))))) hb
      : FVec Ideal ⟨2, ![a, b]⟩ .bf16) (ix2 p q)
    = Ideal.div (x (ix2 p q)) (max (Ideal.sqrt (∑ k : Fin b, x (ix2 p k) * x (ix2 p k))) (Ideal.ofBits .f32 e)) := by
  show Ideal.div (x (ix2 p q)) (broadcastInDim (s := ⟨2, ![a, 1]⟩) ⟨2, ![a, b]⟩ ![0, 1] h2 _ (ix2 p q)) = _
  rw [Cert.LibRowMax.broadcastInDim_a1_ab_apply _ h2 p q]
  show Ideal.div (x (ix2 p q)) (max (Ideal.sqrt (broadcastInDim (s := ⟨1, ![a]⟩) ⟨2, ![a, 1]⟩ ![0] h1 _ (ix2 p (0 : Fin 1))))
      (broadcastInDim (s := ⟨0, ![]⟩) ⟨2, ![a, 1]⟩ ![] h0 (constant (F := Ideal) ⟨0, ![]⟩ .f32 e) (ix2 p (0 : Fin 1)))) = _
  rw [Cert.LibLogSoftmax.broadcastInDim_a_a1_apply _ h1 p 0, sumsq_apply x hr' hr hu p,
    broadcastInDim_apply _ h0 _ (ix2 p (0 : Fin 1)) ix0 (fun ax => ax.elim0)]
  rfl

/-- The sum of a column over both its axes, from zero, divided by a constant: the sum over the rows, divided. -/
theorem mean_apply (x : FVec Ideal ⟨2, ![a, 1]⟩ .f32) (n : BitVec 32)
    (hr' : (⟨2, ![a, 1]⟩ : Shape).ReducesTo [0, 1] ⟨0, ![]⟩) (hu : 0 < (⟨0, ![]⟩ : Shape).numel)
    (j : (⟨0, ![]⟩ : Shape).Idx) :
    Host.divf (Host.reduceAdd x (constant (F := Ideal) ⟨0, ![]⟩ .f32 0x00000000#32) hr' hu)
        (constant (F := Ideal) ⟨0, ![]⟩ .f32 n) j
      = Ideal.div (∑ i : Fin a, x (ix2 i (0 : Fin 1))) (Ideal.ofBits .f32 n) := by
  show Ideal.div (Host.reduceAdd x (constant (F := Ideal) ⟨0, ![]⟩ .f32 0x00000000#32) hr' hu j) (Ideal.ofBits .f32 n) = _
  refine congrArg (Ideal.div · (Ideal.ofBits .f32 n)) ?_
  simp only [Host.reduceAdd, Ideal.hostReduceAdd_def]
  rw [Ideal.hostReduceAdd_total hr' (fun b => b.elim0)]
  show Ideal.ofBits .f32 0x00000000#32 + ∑ i : (⟨2, ![a, 1]⟩ : Shape).Idx, x i = _
  rw [Ideal.ofBits_zero_f32, zero_add, sum_idx2]
  exact Finset.sum_congr rfl fun i _ => Fin.sum_univ_one _

end Stages

/-! ## The program's buffers -/

variable (m : (ℓ : Loc nD τ sig) → Buf (Elt Ideal) ℓ)

/-- The array of normalised features the region is handed, entry (i, k): the feature divided by the clamped norm of
    its row. -/
theorem V_feat (c : Dev nD) (i : Fin 4096) (k : Fin 128) :
    (V m c main_v5) (ValueIdx.ix2 i k)
      = Cert.Spec.feat (Cert.Spec.featOf (m ((c.tc : Thread nD τ).loc main_arg0))) i k := by
  have e : (V m c main_v5 : S4096x128.Idx → EReal)
      = (truncf .bf16 (Host.divf (m ((c.tc : Thread nD τ).loc main_arg0) : FVec Ideal S4096x128 .f32)
          (broadcastInDim (s := S4096x1) S4096x128 ![0, 1] bcast_S4096x1_S4096x128_0_1
            (maximumf (Host.sqrt (broadcastInDim (s := S4096) S4096x1 ![0] bcast_S4096_S4096x1_0
                (Host.reduceAdd (mulf (m ((c.tc : Thread nD τ).loc main_arg0) : FVec Ideal S4096x128 .f32)
                    (m ((c.tc : Thread nD τ).loc main_arg0)))
                  (constant (F := Ideal) S_ .f32 0x00000000#32) reducesTo_S4096x128_S4096_d1 h_S_)))
              (broadcastInDim (s := S_) S4096x1 ![] bcast_S_S4096x1 (constant (F := Ideal) S_ .f32 0x2B8CBCCC#32)))))
          bitsLt_bf16_f32 : FVec Ideal S4096x128 .bf16) := by
    show StableHlo.after hostOps0_1 (StableHlo.after hostOps0 (W₀ m c)) (Proc.devRef .tc main_v5) = _
    after_results
    rfl
  refine (congrFun e (ValueIdx.ix2 i k)).trans ?_
  refine (normalise_apply (m ((c.tc : Thread nD τ).loc main_arg0) : FVec Ideal S4096x128 .f32) 0x2B8CBCCC#32
    reducesTo_S4096x128_S4096_d1 (by decide) h_S_ bcast_S4096_S4096x1_0 bcast_S_S4096x1 bcast_S4096x1_S4096x128_0_1
    bitsLt_bf16_f32 i k).trans ?_
  rfl

/-- The labels placed as a column: entry (i, 0) is label i. -/
theorem V_labq (c : Dev nD) (i : Fin 4096) :
    (V m c main_v6) (ValueIdx.ix2 i (0 : Fin 1)) = Cert.Spec.labOf (m ((c.tc : Thread nD τ).loc main_arg1)) i := by
  have e : (V m c main_v6 : S4096x1.Idx → BitVec 32)
      = shapeCast S4096x1 (m ((c.tc : Thread nD τ).loc main_arg1) : IVec S4096 32) shapeCasts_S4096_S4096x1 := by
    show StableHlo.after hostOps0_1 (StableHlo.after hostOps0 (W₀ m c)) (Proc.devRef .tc main_v6) = _
    after_results
    rfl
  refine (congrFun e (ValueIdx.ix2 i (0 : Fin 1))).trans ?_
  exact Cert.LibColumn.shapeCast_a_a1_apply _ shapeCasts_S4096_S4096x1 i 0

/-- The labels placed as a row: entry (0, j) is label j. -/
theorem V_labk (c : Dev nD) (j : Fin 4096) :
    (V m c main_v7) (ValueIdx.ix2 (0 : Fin 1) j) = Cert.Spec.labOf (m ((c.tc : Thread nD τ).loc main_arg1)) j := by
  have e : (V m c main_v7 : S1x4096.Idx → BitVec 32)
      = shapeCast S1x4096 (m ((c.tc : Thread nD τ).loc main_arg1) : IVec S4096 32) shapeCasts_S4096_S1x4096 := by
    show StableHlo.after hostOps0_1 (StableHlo.after hostOps0 (W₀ m c)) (Proc.devRef .tc main_v7) = _
    after_results
    rfl
  refine (congrFun e (ValueIdx.ix2 (0 : Fin 1) j)).trans ?_
  exact shapeCast_a_1a_apply _ shapeCasts_S4096_S1x4096 0 j

/-- The program's result: the sum of the 4096 per-row losses the region leaves, divided by 4096. -/
theorem W₄_loss (c : Dev nD) :
    W₄ m c (Proc.devRef .tc main_v10)
      = fun _ => Ideal.div (∑ i : Fin 4096, (outArr m c) (ValueIdx.ix2 i (0 : Fin 1))) Cert.Spec.rows := by
  rw [W₄_result]
  funext j
  exact mean_apply (outArr m c : FVec Ideal S4096x1 .f32) 0x45800000#32 reducesTo_S4096x1_S_d0_1 h_S_ j

end Cert.KernelIdeal.Run

end
-- ==== Proof.LibTransposedProduct.lean ====
/-
  A matrix product whose right factor is given by its rows, for any extents a, k, b on the extended reals.

  The right factor arrives as a `[b, k]` matrix and is transposed to `[k, b]` before a plain product
  `[a, k] × [k, b] → [a, b]` (the left operand's last axis contracted with the right operand's first) into a zero
  accumulator. Entry `(i, j)` of the result is then the sum over `e : Fin k` of `lhs (i, e) * rhs (j, e)`: row `i` of
  the left factor against row `j` of the untransposed right factor. A change of float format on the way in is the
  identity on the extended reals, so the factors may be of any float formats.
-/
import proofs.«161315_j57664230916706_2_alg».proof.Proof.LibRowMax

noncomputable section

namespace Cert.LibTransposedProduct

open Idealize.ShloMosaic Idealize.ShloMosaic.ValueIdx

variable {a k b : ℕ}

/-- The product of `lhs : [a, k]` with the transpose of `rhs : [b, k]`, into a zero accumulator, at `(i, j)`: the sum
    over `e` of `lhs (i, e) * rhs (j, e)`. -/
theorem matmul_transposed_apply {φ₁ φ₂ : FTy}
    (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![b, k]⟩ φ₂)
    (ht : (⟨2, ![b, k]⟩ : Shape).Transposes [1, 0] ⟨2, ![k, b]⟩) (i : Fin a) (j : Fin b) :
    FloatOps.matmul (Cert.LibRowMax.plainDims a k b wf) prec lhs (transpose ⟨2, ![k, b]⟩ [1, 0] rhs ht)
        (constant ⟨2, ![a, b]⟩ .f32 0x00000000#32) (ix2 i j)
      = ∑ e : Fin k, lhs (ix2 i e) * rhs (ix2 j e) :=
  (Cert.LibRowMax.matmul_plain_apply wf prec lhs (transpose ⟨2, ![k, b]⟩ [1, 0] rhs ht) i j).trans
    (Finset.sum_congr rfl fun e _ => congrArg (lhs (ix2 i e) * ·) (transpose_ix2_apply rhs ht e j))

end Cert.LibTransposedProduct

end
-- ==== Proof.IdealRow.lean ====
/-
  The kernel body's stored column, read at a row.

  At grid point t the body sees a block x0 of 256 feature rows (rows 256·t … 256·t+255 of the matrix), the whole 4096-row
  matrix x1, the block's 256 labels x2 and all 4096 labels x3.  For the block's row p and a column q write
      d p q   for "256·t + p = q" (the entry is on the diagonal of the big matrix),
      lg q    = −∞ if d p q, else Σ_k x0(p,k) · x1(q,k)        (the masked similarity),
      w q     = 1 if x2 p = x3 q and not d p q, else 0          (a positive pair).
  The stored value at row p is
      0 − ( Σ_q w q · lg q − (Σ_q w q) · (M + log Σ_q exp(lg q − M)) ) / (Σ_q w q + ε),     M = max_q lg q.
-/
import proofs.«161315_j57664230916706_2_alg».proof.Proof.Gen.KernelIdeal.Skeleton
import proofs.«161315_j57664230916706_2_alg».proof.Proof.LibTransposedProduct
import proofs.«161315_j57664230916706_2_alg».proof.Proof.LibLastAxis
import proofs.«161315_j57664230916706_2_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Row

open Cert.KernelIdeal Cert.KernelIdeal.Gen
open Idealize.ShloMosaic Idealize.ShloMosaic.ValueIdx

/-! ## Words -/

/-- Equality of two words, as a bit. -/
theorem cmpi_eq_ite {w : Nat} (a b : BitVec w) : IntOp.cmpi .eq a b = if a = b then 1#1 else 0#1 := by
  unfold IntOp.cmpi
  by_cases h : a = b
  · subst h; simp
  · rw [if_neg h, show (a == b) = false from beq_eq_false_iff_ne.mpr h]; rfl

/-- 256·t + p as a 32-bit word, for a block number and a row inside the block. -/
theorem row_word (t p : Nat) (ht : t < 16) (hp : p < 256) :
    IntOp.addi (Scalar.muli (BitVec.ofNat 32 t) 256#32) (BitVec.ofNat 32 p) = BitVec.ofNat 32 (t * 256 + p) := by
  apply BitVec.eq_of_toNat_eq
  simp only [IntOp.addi, Scalar.muli, IntOp.muli, BitVec.toNat_add, BitVec.toNat_mul, BitVec.toNat_ofNat]
  omega

/-- Two numbers below 2³² are equal when their words are. -/
theorem word_inj (a b : Nat) (ha : a < 4294967296) (hb : b < 4294967296) : BitVec.ofNat 32 a = BitVec.ofNat 32 b ↔ a = b := by
  constructor
  · intro e
    have := congrArg BitVec.toNat e
    simp only [BitVec.toNat_ofNat] at this
    omega
  · rintro rfl; rfl

/-- A `[1, b]` row broadcast to `[a, b]` reads, at `(p, q)`, the row's entry in column `q`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-! ## The diagonal -/

/-- The body's diagonal bit at `(p, q)`: the block's row p is row 256·t + p of the matrix. -/
theorem diag_apply (i : grid0.Coords) (p : Fin 256) (q : Fin 4096) :
    k0_pay2 i (ix2 p q) = if (i 0).val * 256 + p.val = q.val then 1#1 else 0#1 := by
  have ht : (i 0).val < 16 := (i 0).isLt
  unfold k0_pay2
  dsimp only
  show IntOp.cmpi .eq (broadcastTo S256x4096 (addi (broadcast S256x1 (Scalar.muli (BitVec.ofNat 32 (i 0).val) 256#32))
      (iota .tc S256x1 32 [0] iota_S256x1_d0_w32)) broadcasts_S256x1_S256x4096 (ix2 p q))
    (broadcastTo S256x4096 (iota .tc S1x4096 32 [1] iota_S1x4096_d1_w32) broadcasts_S1x4096_S256x4096 (ix2 p q)) = _
  rw [Cert.LibColumn.broadcastTo_a1_ab_apply _ broadcasts_S256x1_S256x4096 p q,
    broadcastTo_1b_ab_apply _ broadcasts_S1x4096_S256x4096 p q]
  show IntOp.cmpi .eq (IntOp.addi (Scalar.muli (BitVec.ofNat 32 (i 0).val) 256#32) (iota .tc S256x1 32 [0] iota_S256x1_d0_w32 (ix2 p (0 : Fin 1))))
    (iota .tc S1x4096 32 [1] iota_S1x4096_d1_w32 (ix2 (0 : Fin 1) q)) = _
  rw [iota_single_apply, iota_single_apply]
  show IntOp.cmpi .eq (IntOp.addi (Scalar.muli (BitVec.ofNat 32 (i 0).val) 256#32) (BitVec.ofNat 32 p.val)) (BitVec.ofNat 32 q.val) = _
  rw [row_word _ _ ht p.isLt, cmpi_eq_ite]
  have hq := q.isLt
  have hp := p.isLt
  exact if_congr (word_inj _ _ (by omega) (by omega)) rfl rfl

/-! ## The positive-pair mask -/

/-- The body's mask at `(p, q)`: 1 for a pair of equal labels off the diagonal, else 0. -/
theorem mask_apply (i : grid0.Coords) (x2 : Vec Ideal S256x1 .i32) (x3 : Vec Ideal S1x4096 .i32) (p : Fin 256) (q : Fin 4096) :
    k0_pay3 (F := Ideal) i x2 x3 (ix2 p q)
      = if x2 (ix2 p (0 : Fin 1)) = x3 (ix2 (0 : Fin 1) q) ∧ ¬ ((i 0).val * 256 + p.val = q.val) then (1 : EReal) else 0 := by
  unfold k0_pay3
  dsimp only
  show FloatOps.sitofp (F := Ideal) .f32 ((IntOp.andi (IntOp.cmpi .eq
        (broadcastTo S256x4096 (shapeCast S256x1 x2 shapeCasts_S256x1_S256x1) broadcasts_S256x1_S256x4096 (ix2 p q))
        (broadcastTo S256x4096 (shapeCast S1x4096 x3 shapeCasts_S1x4096_S1x4096) broadcasts_S1x4096_S256x4096 (ix2 p q)))
      (IntOp.xori (k0_pay2 i (ix2 p q)) 1#1)).setWidth 32) = _
  rw [Cert.LibColumn.broadcastTo_a1_ab_apply _ broadcasts_S256x1_S256x4096 p q,
    broadcastTo_1b_ab_apply _ broadcasts_S1x4096_S256x4096 p q, shapeCast_self, shapeCast_self, diag_apply, cmpi_eq_ite]
  by_cases hl : x2 (ix2 p (0 : Fin 1)) = x3 (ix2 (0 : Fin 1) q) <;> by_cases hd : (i 0).val * 256 + p.val = q.val
  · rw [if_pos hl, if_pos hd, if_neg (fun h => h.2 hd)]
    show (((IntOp.andi 1#1 (IntOp.xori 1#1 1#1)).setWidth 32).toInt : ℝ) = ((0 : ℝ) : EReal)
    norm_num [show ((IntOp.andi 1#1 (IntOp.xori 1#1 1#1)).setWidth 32 : BitVec 32).toInt = 0 by decide]
  · rw [if_pos hl, if_neg hd, if_pos ⟨hl, hd⟩]
    show (((IntOp.andi 1#1 (IntOp.xori 0#1 1#1)).setWidth 32).toInt : ℝ) = ((1 : ℝ) : EReal)
    norm_num [show ((IntOp.andi 1#1 (IntOp.xori 0#1 1#1)).setWidth 32 : BitVec 32).toInt = 1 by decide]
  · rw [if_neg hl, if_pos hd, if_neg (fun h => hl h.1)]
    show (((IntOp.andi 0#1 (IntOp.xori 1#1 1#1)).setWidth 32).toInt : ℝ) = ((0 : ℝ) : EReal)
    norm_num [show ((IntOp.andi 0#1 (IntOp.xori 1#1 1#1)).setWidth 32 : BitVec 32).toInt = 0 by decide]
  · rw [if_neg hl, if_neg hd, if_neg (fun h => hl h.1)]
    show (((IntOp.andi 0#1 (IntOp.xori 0#1 1#1)).setWidth 32).toInt : ℝ) = ((0 : ℝ) : EReal)
    norm_num [show ((IntOp.andi 0#1 (IntOp.xori 0#1 1#1)).setWidth 32 : BitVec 32).toInt = 0 by decide]

/-! ## The masked similarity -/

/-- The body's similarity block with the diagonal at the named constant. -/
def logits (i : grid0.Coords) (x0 : Vec Ideal S256x128 .bf16) (x1 : Vec Ideal S4096x128 .bf16) : FVec Ideal S256x4096 .f32 :=
  select (k0_pay2 i) (broadcast S256x4096 (Named.named (F := Ideal) κ "neg_big" (φ := .f32) 0xF149F2CA#32))
    (matmul (φ₁ := .bf16) (φ₂ := .bf16) dot_S256x128_S128x4096_S256x4096_1_0_0_1_n_n none (shapeCast S256x128 (x0 : FVec Ideal S256x128 .bf16) shapeCasts_S256x128_S256x128)
      (transpose S128x4096 [1, 0] (shapeCast S4096x128 (x1 : FVec Ideal S4096x128 .bf16) shapeCasts_S4096x128_S4096x128) transposes_S4096x128_p1_0_S128x4096)
      (constant S256x4096 .f32 0x00000000#32))

/-- At `(p, q)`: minus infinity on the diagonal, else the inner product of row p of the block with row q of the matrix. -/
theorem logits_apply (i : grid0.Coords) (x0 : Vec Ideal S256x128 .bf16) (x1 : Vec Ideal S4096x128 .bf16) (p : Fin 256) (q : Fin 4096) :
    logits i x0 x1 (ix2 p q)
      = if (i 0).val * 256 + p.val = q.val then (⊥ : EReal) else ∑ k : Fin 128, x0 (ix2 p k) * x1 (ix2 q k) := by
  unfold logits
  rw [select_apply, diag_apply, shapeCast_self, shapeCast_self]
  have hm := Cert.LibTransposedProduct.matmul_transposed_apply (a := 256) (k := 128) (b := 4096) (φ₁ := .bf16) (φ₂ := .bf16)
    dot_S256x128_S128x4096_S256x4096_1_0_0_1_n_n_wf none x0 x1 transposes_S4096x128_p1_0_S128x4096 p q
  have hn : Named.named (F := Ideal) κ "neg_big" (φ := .f32) 0xF149F2CA#32 = (⊥ : EReal) :=
    IdealRules.named_const.ideal_named_scalar _ _ _ _ rfl
  by_cases hd : (i 0).val * 256 + p.val = q.val
  · rw [if_pos hd, if_pos hd, select_one, broadcast_apply, hn]
  · rw [if_neg hd, if_neg hd, select_zero]
    exact hm

/-! ## The stored value at a row -/

/-- What the body stores at row `p` of its block, for block number `t`: see the head of this file. -/
def rowVal (t : ℕ) (x0 : Vec Ideal S256x128 .bf16) (x1 : Vec Ideal S4096x128 .bf16) (x2 : Vec Ideal S256x1 .i32) (x3 : Vec Ideal S1x4096 .i32)
    (p : Fin 256) : EReal :=
  0 - Ideal.div
    ((∑ q : Fin 4096, (if x2 (ix2 p (0 : Fin 1)) = x3 (ix2 (0 : Fin 1) q) ∧ ¬ (t * 256 + p.val = q.val) then (1 : EReal) else 0)
          * (if t * 256 + p.val = q.val then (⊥ : EReal) else ∑ k : Fin 128, x0 (ix2 p k) * x1 (ix2 q k)))
      - (∑ q : Fin 4096, (if x2 (ix2 p (0 : Fin 1)) = x3 (ix2 (0 : Fin 1) q) ∧ ¬ (t * 256 + p.val = q.val) then (1 : EReal) else 0))
        * ((Finset.univ : Finset (Fin 4096)).fold max ⊥ (fun q => if t * 256 + p.val = q.val then (⊥ : EReal) else ∑ k : Fin 128, x0 (ix2 p k) * x1 (ix2 q k))
            + Ideal.log (∑ q : Fin 4096, Ideal.exp ((if t * 256 + p.val = q.val then (⊥ : EReal) else ∑ k : Fin 128, x0 (ix2 p k) * x1 (ix2 q k))
                - (Finset.univ : Finset (Fin 4096)).fold max ⊥ (fun q => if t * 256 + p.val = q.val then (⊥ : EReal) else ∑ k : Fin 128, x0 (ix2 p k) * x1 (ix2 q k))))))
    ((∑ q : Fin 4096, (if x2 (ix2 p (0 : Fin 1)) = x3 (ix2 (0 : Fin 1) q) ∧ ¬ (t * 256 + p.val = q.val) then (1 : EReal) else 0))
      + Ideal.ofBits .f32 0x3727C5AC#32)

/-! ## The stored value, read at a row -/

/-- The lane sum of a `[256, 4096]` vector kept as a column. -/
abbrev rsum (Y : FVec Ideal S256x4096 .f32) : FVec Ideal S256x1 .f32 :=
  shapeCast S256x1 (multiReduction .add [1] S256 Y 0x00000000#32 reduces_S256x4096_S256 (.inl rfl) rfl) shapeCasts_S256_S256x1
/-- The lane maximum kept as a column. -/
abbrev rmax (Y : FVec Ideal S256x4096 .f32) : FVec Ideal S256x1 .f32 :=
  shapeCast S256x1 (multiReduction .maximumf [1] S256 Y 0xFF800000#32 reduces_S256x4096_S256 (.inl rfl) rfl) shapeCasts_S256_S256x1

theorem rsum_apply (Y : FVec Ideal S256x4096 .f32) (p : Fin 256) : rsum Y (ix2 p (0 : Fin 1)) = ∑ q : Fin 4096, Y (ix2 p q) :=
  (Cert.LibColumn.shapeCast_a_a1_apply _ shapeCasts_S256_S256x1 p 0).trans
    (Cert.LibColumn.sum_last_apply Y reduces_S256x4096_S256 (.inl rfl) rfl p)

theorem ofBits_negInf : Ideal.ofBits .f32 0xFF800000#32 = (⊥ : EReal) := by
  simp [Ideal.ofBits, Ideal.ieee]

theorem rmax_apply (Y : FVec Ideal S256x4096 .f32) (p : Fin 256) :
    rmax Y (ix2 p (0 : Fin 1)) = (Finset.univ : Finset (Fin 4096)).fold max ⊥ fun q => Y (ix2 p q) := by
  refine (Cert.LibColumn.shapeCast_a_a1_apply _ shapeCasts_S256_S256x1 p 0).trans ?_
  rw [Cert.LibLastAxis.max_last_apply Y 0xFF800000#32 reduces_S256x4096_S256 (.inl rfl) rfl p, ofBits_negInf]

/-- The pointwise operations used below, read at an index (each is the definition). -/
theorem exp_apply {s : Shape} (x : FVec Ideal s .f32) (j : s.Idx) : exp x j = Ideal.exp (x j) := rfl
theorem log_apply {s : Shape} (x : FVec Ideal s .f32) (j : s.Idx) : log x j = Ideal.log (x j) := rfl
theorem scalar_ofBits (b : BitVec 32) : Scalar.ofBits (F := Ideal) .f32 b = Ideal.ofBits .f32 b := rfl

set_option maxHeartbeats 400000 in
theorem pay4_eq (i : grid0.Coords) (x2 : Vec Ideal S256x1 .i32) (x3 : Vec Ideal S1x4096 .i32) :
    k0_pay4 (F := Ideal) i x2 x3 = rsum (k0_pay3 i x2 x3) := by
  unfold k0_pay4
  with_reducible rfl

set_option maxHeartbeats 400000 in
theorem pay5_eq (i : grid0.Coords) (x0 : Vec Ideal S256x128 .bf16) (x1 : Vec Ideal S4096x128 .bf16) (x2 : Vec Ideal S256x1 .i32) (x3 : Vec Ideal S1x4096 .i32) :
    k0_pay5 (F := Ideal) i x0 x1 x2 x3
      = subf (rsum (mulf (k0_pay3 i x2 x3) (logits i x0 x1)))
          (mulf (k0_pay4 i x2 x3) (addf (rmax (logits i x0 x1))
            (log (rsum (exp (subf (logits i x0 x1) (broadcastTo S256x4096 (rmax (logits i x0 x1)) broadcasts_S256x1_S256x4096))))))) := by
  unfold k0_pay5 logits
  with_reducible rfl

set_option maxHeartbeats 400000 in
theorem pay1_eq (v37 v42 : FVec Ideal S256x1 .f32) :
    k0_pay1 (F := Ideal) v37 v42
      = subf (broadcast S256x1 (Scalar.ofBits (F := Ideal) .f32 0x00000000#32))
          (divf v42 (addf v37 (broadcast S256x1 (Scalar.ofBits (F := Ideal) .f32 0x3727C5AC#32)))) := by
  unfold k0_pay1
  with_reducible rfl

set_option maxHeartbeats 400000 in
/-- The sum of exponentials of a row of the logits shifted by the row's maximum. -/
theorem expsum_apply (Y : FVec Ideal S256x4096 .f32) (p : Fin 256) :
    rsum (exp (subf Y (broadcastTo S256x4096 (rmax Y) broadcasts_S256x1_S256x4096))) (ix2 p (0 : Fin 1))
      = ∑ q : Fin 4096, Ideal.exp (Y (ix2 p q) - rmax Y (ix2 p (0 : Fin 1))) := by
  refine (rsum_apply _ p).trans (Finset.sum_congr rfl fun q _ => ?_)
  rw [exp_apply, subf_apply, Cert.LibColumn.broadcastTo_a1_ab_apply _ broadcasts_S256x1_S256x4096 p q]

set_option maxHeartbeats 400000 in
/-- The stored column at row `p`, over any mask and any logits. -/
theorem col_apply (Wt Y : FVec Ideal S256x4096 .f32) (p : Fin 256) :
    subf (broadcast S256x1 (Scalar.ofBits (F := Ideal) .f32 0x00000000#32))
        (divf (subf (rsum (mulf Wt Y)) (mulf (rsum Wt) (addf (rmax Y)
            (log (rsum (exp (subf Y (broadcastTo S256x4096 (rmax Y) broadcasts_S256x1_S256x4096))))))))
          (addf (rsum Wt) (broadcast S256x1 (Scalar.ofBits (F := Ideal) .f32 0x3727C5AC#32)))) (ix2 p (0 : Fin 1))
      = 0 - Ideal.div ((∑ q : Fin 4096, Wt (ix2 p q) * Y (ix2 p q))
            - (∑ q : Fin 4096, Wt (ix2 p q)) * ((Finset.univ : Finset (Fin 4096)).fold max ⊥ (fun q => Y (ix2 p q))
                + Ideal.log (∑ q : Fin 4096, Ideal.exp (Y (ix2 p q) - (Finset.univ : Finset (Fin 4096)).fold max ⊥ (fun q => Y (ix2 p q))))))
          ((∑ q : Fin 4096, Wt (ix2 p q)) + Ideal.ofBits .f32 0x3727C5AC#32) := by
  rw [subf_apply, divf_apply, subf_apply, mulf_apply, addf_apply, addf_apply, log_apply, broadcast_apply, broadcast_apply,
    scalar_ofBits, scalar_ofBits, Ideal.ofBits_zero_f32, expsum_apply, rmax_apply, rsum_apply, rsum_apply]
  rfl

set_option maxHeartbeats 400000 in
/-- The stored column at row `p`. -/
theorem pay_apply (i : grid0.Coords) (x0 : Vec Ideal S256x128 .bf16) (x1 : Vec Ideal S4096x128 .bf16) (x2 : Vec Ideal S256x1 .i32) (x3 : Vec Ideal S1x4096 .i32)
    (p : Fin 256) :
    k0_pay1 (k0_pay4 i x2 x3) (k0_pay5 i x0 x1 x2 x3) (ix2 p (0 : Fin 1)) = rowVal (i 0).val x0 x1 x2 x3 p := by
  rw [pay1_eq, pay5_eq, pay4_eq, col_apply]
  unfold rowVal
  simp only [mask_apply, logits_apply]

end Cert.KernelIdeal.Row

end
-- ==== Proof.IdealBlocks.lean ====
/-
  From the blocks to the array: the region leaves in its result column, at row r, the specification's loss of row r.

  The grid has 16 points; point t handles rows 256·t … 256·t + 255. Its four input blocks are pieces of the arrays the
  host operations prepared: rows 256·t … of the normalised features, all 4096 rows of them, the labels of rows
  256·t … as a column, and all 4096 labels as a row. A block's entry at coordinate y of axis a is the array's entry at
  (block index on a) × (block size on a) + y, and the block indices are decided once over the grid: t on the row axis of
  the row blocks and of the output, 0 everywhere else. Read through these, what the body stores at row p of its block —
  the value of the body's payload at row p — is the specification's loss of row 256·t + p, term for term: the payload's
  diagonal test "256·t + p = q" says that column q is the row's own, its products are the similarities of the
  normalised rows, its label test is the specification's. Every point writes its block back, the 16 blocks tile the
  column (row r is in the block of point r / 256), so the column ends holding the losses of all 4096 rows; the host's
  sum and division then give the specification's result.
-/
import proofs.«161315_j57664230916706_2_alg».proof.Proof.IdealHost
import proofs.«161315_j57664230916706_2_alg».proof.Proof.IdealRow
import proofs.«161315_j57664230916706_2_alg».proof.Proof.SpecArgs
import Idealize.ShloMosaic.Lib.ValueIdx
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

/-! ## The blocks as pieces of the arrays -/

/-- The zero offsets of a whole-buffer rectangle. -/
theorem hz : (![0, 0] : Fin 2 → Nat) = fun _ => 0 := funext fun a => by fin_cases a <;> rfl

/-- The block indices, decided over the grid: point t reads row block t of the features and of the label column and
    writes row block t of the output; every other block index is 0; the grid coordinate of point t is t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t (0 : Fin 1)).val = t.val :=
  (by decide +kernel : ∀ t : Fin grid0.N, _)

/-- The row block of the features at point t: row p of the block is row 256·t + p of the array. -/
theorem iblk0_apply (c : Dev nD) (t : Fin cfg0.N) (p : Fin 256) (k : Fin 128) (r : Fin 4096) (hr : r.val = t.val * 256 + p.val) :
    (iblk m c 0 t : Vec Ideal S256x128 .bf16) (ix2 p k) = (V m c main_v5 : S4096x128.Idx → EReal) (ix2 r k) := by
  obtain ⟨e0, e1, -⟩ := idx_facts t
  unfold iblk
  rw [View.read_apply]
  show (V m c main_v5 : S4096x128.Idx → EReal) _ = (V m c main_v5 : S4096x128.Idx → EReal) _
  congr 1
  funext a
  apply Fin.ext
  match a with
  | ⟨0, _⟩ => show win0_0.index t (0 : Fin 2) * 256 + 1 * p.val = r.val; rw [e0, hr]; omega
  | ⟨1, _⟩ => show win0_0.index t (1 : Fin 2) * 128 + 1 * k.val = k.val; rw [e1]; omega

/-- The whole-array window of the features: the block is the array. -/
theorem iblk1_apply (c : Dev nD) (t : Fin cfg0.N) (q : Fin 4096) (k : Fin 128) :
    (iblk m c 1 t : Vec Ideal S4096x128 .bf16) (ix2 q k) = (V m c main_v5 : S4096x128.Idx → EReal) (ix2 q k) := by
  obtain ⟨-, -, e0, e1, -⟩ := idx_facts t
  unfold iblk
  rw [View.read_apply]
  show (V m c main_v5 : S4096x128.Idx → EReal) _ = (V m c main_v5 : S4096x128.Idx → EReal) _
  congr 1
  funext a
  apply Fin.ext
  match a with
  | ⟨0, _⟩ => show win0_1.index t (0 : Fin 2) * 4096 + 1 * q.val = q.val; rw [e0]; omega
  | ⟨1, _⟩ => show win0_1.index t (1 : Fin 2) * 128 + 1 * k.val = k.val; rw [e1]; omega

/-- The row block of the label column at point t: row p of the block is row 256·t + p of the column. -/
theorem iblk2_apply (c : Dev nD) (t : Fin cfg0.N) (p : Fin 256) (r : Fin 4096) (hr : r.val = t.val * 256 + p.val) :
    (iblk m c 2 t : Vec Ideal S256x1 .i32) (ix2 p (0 : Fin 1)) = (V m c main_v6 : S4096x1.Idx → BitVec 32) (ix2 r (0 : Fin 1)) := by
  obtain ⟨-, -, -, -, e0, e1, -⟩ := idx_facts t
  unfold iblk
  rw [View.read_apply]
  show (V m c main_v6 : S4096x1.Idx → BitVec 32) _ = (V m c main_v6 : S4096x1.Idx → BitVec 32) _
  congr 1
  funext a
  apply Fin.ext
  match a with
  | ⟨0, _⟩ => show win0_2.index t (0 : Fin 2) * 256 + 1 * p.val = r.val; rw [e0, hr]; omega
  | ⟨1, _⟩ => show win0_2.index t (1 : Fin 2) * 1 + 1 * 0 = 0; rw [e1]

/-- The whole-array window of the label row: the block is the row. -/
theorem iblk3_apply (c : Dev nD) (t : Fin cfg0.N) (q : Fin 4096) :
    (iblk m c 3 t : Vec Ideal S1x4096 .i32) (ix2 (0 : Fin 1) q) = (V m c main_v7 : S1x4096.Idx → BitVec 32) (ix2 (0 : Fin 1) q) := by
  obtain ⟨-, -, -, -, -, -, e0, e1, -⟩ := idx_facts t
  unfold iblk
  rw [View.read_apply]
  show (V m c main_v7 : S1x4096.Idx → BitVec 32) _ = (V m c main_v7 : S1x4096.Idx → BitVec 32) _
  congr 1
  funext a
  apply Fin.ext
  match a with
  | ⟨0, _⟩ => show win0_3.index t (0 : Fin 2) * 1 + 1 * 0 = 0; rw [e0]
  | ⟨1, _⟩ => show win0_3.index t (1 : Fin 2) * 4096 + 1 * q.val = q.val; rw [e1]; omega

/-! ## A row's loss, in one form -/

/-- A row's loss from its positives indicator w and its masked logits lg: with M the maximum of lg,
    0 − ( Σ w·lg − (Σ w)·(M + log Σ exp(lg − M)) ) / (Σ w + ε′). -/
def rowForm (w lg : Fin 4096 → EReal) : EReal :=
  0 - Ideal.div
    ((∑ q, w q * lg q)
      - (∑ q, w q) * ((Finset.univ : Finset (Fin 4096)).fold max ⊥ lg
          + Ideal.log (∑ q, Ideal.exp (lg q - (Finset.univ : Finset (Fin 4096)).fold max ⊥ lg))))
    ((∑ q, w q) + Ideal.ofBits .f32 0x3727C5AC#32)

/-- What the body stores at row p of block t is the specification's loss of row r = 256·t + p, once the four blocks
    are read as the arrays they are blocks of: the block's feature rows are rows 256·t … of the normalised features,
    the block's labels are the labels of those rows, and "256·t + p = q" says that column q is the row's own. -/
theorem rowVal_eq_kerRow (X : Fin 4096 → Fin 128 → EReal) (lab : Fin 4096 → BitVec 32) (t : ℕ)
    (x0 : Vec Ideal S256x128 .bf16) (x1 : Vec Ideal S4096x128 .bf16) (x2 : Vec Ideal S256x1 .i32) (x3 : Vec Ideal S1x4096 .i32)
    (p : Fin 256) (r : Fin 4096) (hr : r.val = t * 256 + p.val)
    (h0 : ∀ k, x0 (ix2 p k) = Cert.Spec.feat X r k) (h1 : ∀ q k, x1 (ix2 q k) = Cert.Spec.feat X q k)
    (h2 : x2 (ix2 p (0 : Fin 1)) = lab r) (h3 : ∀ q, x3 (ix2 (0 : Fin 1) q) = lab q) :
    Cert.KernelIdeal.Row.rowVal t x0 x1 x2 x3 p = Cert.Spec.kerRow X lab r := by
  have hd : ∀ q : Fin 4096, (t * 256 + p.val = q.val) ↔ r = q := fun q => by rw [Fin.ext_iff, hr]
  have hw : (fun q : Fin 4096 => if x2 (ix2 p (0 : Fin 1)) = x3 (ix2 (0 : Fin 1) q) ∧ ¬ (t * 256 + p.val = q.val) then (1 : EReal) else 0)
      = Cert.Spec.pos lab r := funext fun q => by
    unfold Cert.Spec.pos
    rw [h2, h3 q]
    exact if_congr (and_congr Iff.rfl (not_congr (hd q))) rfl rfl
  have hlg : (fun q : Fin 4096 => if t * 256 + p.val = q.val then (⊥ : EReal) else ∑ k : Fin 128, x0 (ix2 p k) * x1 (ix2 q k))
      = Cert.Spec.logit X r := funext fun q => by
    unfold Cert.Spec.logit Cert.Spec.sim
    exact if_congr (hd q) rfl (Finset.sum_congr rfl fun k _ => by rw [h0 k, h1 q k])
  show rowForm (fun q : Fin 4096 => if x2 (ix2 p (0 : Fin 1)) = x3 (ix2 (0 : Fin 1) q) ∧ ¬ (t * 256 + p.val = q.val) then (1 : EReal) else 0)
      (fun q : Fin 4096 => if t * 256 + p.val = q.val then (⊥ : EReal) else ∑ k : Fin 128, x0 (ix2 p k) * x1 (ix2 q k))
    = rowForm (Cert.Spec.pos lab r) (Cert.Spec.logit X r)
  rw [hw, hlg]

/-! ## One grid point -/

/-- The column of per-row losses, as a function of the launch arrays. -/
def G (c : Dev nD) : S4096x1.Idx → EReal := fun j =>
  Cert.Spec.kerRow (Cert.Spec.featOf (m ((c.tc : Thread nD τ).loc main_arg0))) (Cert.Spec.labOf (m ((c.tc : Thread nD τ).loc main_arg1))) (j 0)

/-- What point t's body stores at row p of its block is the loss of row 256·t + p. -/
theorem point_apply (c : Dev nD) (t : Fin cfg0.N) (p : Fin 256) (r : Fin 4096) (hr : r.val = t.val * 256 + p.val) :
    k0_pay1 (k0_pay4 (grid0.coords t) (iblk m c 2 t) (iblk m c 3 t))
        (k0_pay5 (grid0.coords t) (iblk m c 0 t) (iblk m c 1 t) (iblk m c 2 t) (iblk m c 3 t)) (ix2 p (0 : Fin 1))
      = Cert.Spec.kerRow (Cert.Spec.featOf (m ((c.tc : Thread nD τ).loc main_arg0))) (Cert.Spec.labOf (m ((c.tc : Thread nD τ).loc main_arg1))) r := by
  obtain ⟨-, -, -, -, -, -, -, -, -, -, eg⟩ := idx_facts t
  refine (Cert.KernelIdeal.Row.pay_apply (grid0.coords t) (iblk m c 0 t) (iblk m c 1 t) (iblk m c 2 t) (iblk m c 3 t) p).trans ?_
  refine rowVal_eq_kerRow _ _ _ (iblk m c 0 t) (iblk m c 1 t) (iblk m c 2 t) (iblk m c 3 t) p r (by rw [eg]; exact hr) ?_ ?_ ?_ ?_
  · intro k; exact (iblk0_apply m c t p k r hr).trans (V_feat m c r k)
  · intro q k; exact (iblk1_apply m c t q k).trans (V_feat m c q k)
  · exact (iblk2_apply m c t p r hr).trans (V_labq m c r)
  · intro q; exact (iblk3_apply m c t q).trans (V_labk m c q)

/-- What point t writes back is block t of the column of per-row losses. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold rowLoss
  rw [View.canon_unit_zero hz]
  simp only [View.ld_unit_zero (S := S256x128) hz, View.ld_unit_zero (S := S4096x128) hz, View.ld_unit_zero (S := S256x1) hz, View.ld_unit_zero (S := S1x4096) hz]
  obtain ⟨-, -, -, -, -, -, -, -, e0, e1, -⟩ := idx_facts t
  funext j
  rw [View.read_apply]
  have hj0 : (j 0).val < 256 := (j 0).isLt
  have hj1 : (j 1).val < 1 := (j 1).isLt
  have hx : (win0 4).xinj (grid0.coords t) j = ix2 (⟨(j 0).val, hj0⟩ : Fin 256) (0 : Fin 1) :=
    funext fun a => Fin.ext (by
      match a with
      | ⟨0, _⟩ => rfl
      | ⟨1, _⟩ => show (j 1).val = 0; omega)
  show k0_pay1 _ _ ((win0 4).xinj (grid0.coords t) j) = _
  rw [hx]
  refine point_apply m c t ⟨(j 0).val, hj0⟩ _ ?_
  show win0_4.index t (0 : Fin 2) * 256 + 1 * (j 0).val = t.val * 256 + (j 0).val
  rw [e0]; omega

/-! ## The blocks tile the column -/

/-- An index of the column is in point t's block iff each coordinate is in the block's range on its axis. -/
theorem mem_blk (t : Fin cfg0.N) (i : S4096x1.Idx) :
    i ∈ ((cfg0.win 4).blk t).view.set
      ↔ ∀ a : Fin 2, win0_4.index t a * S256x1.size a ≤ (i a).val ∧ (i a).val < win0_4.index t a * S256x1.size a + S256x1.size a := by
  show i ∈ ((View.whole main_v8).slice (win0_4.rect t)).set ↔ _
  rw [View.set_slice_whole, Rect.mem_set_unit]
  exact Iff.rfl

/-- Row r of the column is in the block of point r / 256, which is written back. -/
theorem cover (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 16 := N_0
  have ht : (i 0).val / 256 < cfg0.N := by rw [hN]; omega
  obtain ⟨-, -, -, -, -, -, -, -, e0, e1, -⟩ := idx_facts ⟨(i 0).val / 256, ht⟩
  refine ⟨⟨(i 0).val / 256, ht⟩, flush0_4 _, ?_⟩
  rw [mem_blk]
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, ht⟩ (1 : Fin 2) * 1 ≤ (i 1).val ∧ (i 1).val < win0_4.index ⟨(i 0).val / 256, ht⟩ (1 : Fin 2) * 1 + 1
    rw [e1]; omega

/-! ## The result array and the program's result -/

/-- The region leaves the column of per-row losses in its result array. -/
theorem outArr_eq (c : Dev nD) : outArr m c = G m c := by
  unfold outArr
  exact (dats m 0 c).arrAt_eq_of_cover 4 (G m c) (fun t _ => flushed_eq m c t) cover

/-- Entry (r, 0) of the region's result array is the specification's loss of row r. -/
theorem outArr_apply (c : Dev nD) (r : Fin 4096) :
    outArr m c (ValueIdx.ix2 r (0 : Fin 1))
      = Cert.Spec.kerRow (Cert.Spec.featOf (m ((c.tc : Thread nD τ).loc main_arg0))) (Cert.Spec.labOf (m ((c.tc : Thread nD τ).loc main_arg1))) r := by
  rw [outArr_eq]; rfl

/-- The program's result is the specification's loss of the launch arrays. -/
theorem W₄_kerLoss (c : Dev nD) :
    W₄ m c (Proc.devRef .tc main_v10)
      = fun _ => Cert.Spec.kerLoss (Cert.Spec.featOf (m ((c.tc : Thread nD τ).loc main_arg0))) (Cert.Spec.labOf (m ((c.tc : Thread nD τ).loc main_arg1))) := by
  rw [W₄_loss]
  funext _
  exact congrArg (Ideal.div · Cert.Spec.rows) (Finset.sum_congr rfl fun i _ => outArr_apply m c i)

end Cert.KernelIdeal.Run

end
-- ==== Proof.RefValueLib.lean ====
/-
  Small facts about words and extended reals that the reading of the reference program at an entry rests on, none of
  them about a particular program.

  * The words 0x3F800000 and 0xFF800000 denote 1 and minus infinity; a quotient by 1 is the dividend.
  * Two row/column counters below 2^32, compared as 32-bit words after adding the zero word to the first, are equal
    exactly when the counters are: the "diagonal" bit at (i, j) is the bit of i = j.
  * A one-bit word converted to a float is 0 or 1; so the conjunction of "the two labels are equal" with the negated
    diagonal bit, converted, is 1 when the labels agree off the diagonal and 0 otherwise.
  * A select on the bit of a decidable proposition is the `if` on that proposition.
  * A sum over a rank-1 index set is the sum over its one coordinate.
-/
import Idealize.ShloMosaic.PureOps.Ideal.Laws
import Idealize.ShloMosaic.Lib.ValueIdx

noncomputable section

namespace Cert.RefValueLib

open Idealize.ShloMosaic Idealize.ShloMosaic.ValueIdx
open scoped BigOperators

/-- The word 0x3F800000 denotes 1. -/
theorem ofBits_one : Ideal.ofBits .f32 0x3F800000#32 = 1 := by
  simp [Ideal.ofBits, Ideal.ieee, -EReal.coe_mul]; norm_num

/-- The word 0xFF800000 denotes minus infinity. -/
theorem ofBits_negInf : Ideal.ofBits .f32 0xFF800000#32 = ⊥ := by
  simp [Ideal.ofBits, Ideal.ieee]

/-- A quotient by 1 is the dividend, for every extended real. -/
theorem div_one (x : EReal) : Ideal.div x 1 = x := by
  unfold Ideal.div
  rw [if_neg one_ne_zero]
  simp

/-- A select on the bit of a proposition is the `if` on it. -/
theorem select_ite {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-- An equality comparison of two words is the bit of their equality. -/
theorem cmpi_eq_ite {w : Nat} (a b : BitVec w) : IntOp.cmpi .eq a b = if a = b then 1#1 else 0#1 := by
  by_cases h : a = b
  · subst h
    rw [if_pos rfl]
    simp [IntOp.cmpi]
  · rw [if_neg h]
    show BitVec.ofBool (a == b) = 0#1
    rw [beq_eq_false_iff_ne.mpr h]
    rfl

/-- Two counters below 4096, as 32-bit words, the zero word added to the first: equal words exactly when equal counters. -/
theorem diag_word (i j : Fin 4096) :
    IntOp.cmpi .eq (IntOp.addi (BitVec.ofNat 32 i.val) 0#32) (BitVec.ofNat 32 j.val) = if i = j then 1#1 else 0#1 := by
  have hi := i.isLt
  have hj := j.isLt
  have hiff : (BitVec.ofNat 32 i.val = BitVec.ofNat 32 j.val) ↔ i = j := by
    constructor
    · intro e
      have e' := congrArg BitVec.toNat e
      simp only [BitVec.toNat_ofNat] at e'
      exact Fin.ext (by omega)
    · intro e
      rw [e]
  unfold IntOp.addi
  rw [BitVec.add_zero, cmpi_eq_ite]
  simp only [hiff]

/-- A one-bit word converted to a float is 1 for the bit 1 and 0 for the bit 0. -/
theorem uitofp_bit (b : BitVec 1) : FloatOps.uitofp (F := Ideal) .f32 b = if b = 1#1 then 1 else 0 := by
  rcases BitVec.eq_zero_or_eq_one b with h | h <;> subst h
  · show (((0#1 : BitVec 1).toNat : ℝ) : EReal) = _
    simp
  · show (((1#1 : BitVec 1).toNat : ℝ) : EReal) = _
    simp

/-- "The two words are equal" and not "on the diagonal", converted to a float: 1 when the words agree off the
    diagonal, 0 otherwise. -/
theorem mask_word (a b : BitVec 32) (p : Prop) [Decidable p] :
    FloatOps.uitofp (F := Ideal) .f32 (IntOp.andi (IntOp.cmpi .eq a b) (~~~(if p then 1#1 else 0#1 : BitVec 1)))
      = if a = b ∧ ¬p then 1 else 0 := by
  rw [uitofp_bit, cmpi_eq_ite]
  by_cases hab : a = b <;> by_cases hp : p <;> simp [IntOp.andi, hab, hp]

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

end Cert.RefValueLib

end
-- ==== Proof.RefValueMask.lean ====
/-
  The reference's two one-bit matrices and the positive-pair mask, read at an entry (i, j).

  The diagonal bit compares a row counter with a column counter as 32-bit words: at (i, j) it is the bit of i = j.
  The mask is "label i equals label j" and not the diagonal bit, converted to a float: the specification's `pos`.
  Its sum along a row is the specification's `posCount`.
-/
import proofs.«161315_j57664230916706_2_alg».proof.Proof.RefReadP
import proofs.«161315_j57664230916706_2_alg».proof.Proof.SpecArgs
import proofs.«161315_j57664230916706_2_alg».proof.Proof.RefValueLib

noncomputable section

namespace Cert.ReferenceIdeal.RefValue

open Cert.ReferenceIdeal Cert.ReferenceIdeal.Gen Cert.ReferenceIdeal.ReadP Idealize.ShloMosaic Idealize.ShloMosaic.ValueIdx
open Cert.Spec Cert.RefValueLib
open scoped BigOperators

variable (x1 : IVec S4096 32)

/-- The diagonal bit at (i, j) is the bit of i = j. -/
theorem diag_apply (i j : Fin 4096) :
    val_main_v11 (F := Ideal) (ix2 i j) = if i = j then 1#1 else 0#1 := by
  rw [val_main_v11_apply, val_main_v10_apply, val_main_v7_apply, val_main_v9_apply, val_main_c_apply, val_main_v8_apply]
  exact diag_word i j

/-- The mask at (i, j) is 1 when rows i ≠ j carry the same label and 0 otherwise. -/
theorem mask_apply (i j : Fin 4096) :
    val_main_v24 (F := Ideal) x1 (ix2 i j) = Cert.Spec.pos (labOf x1) i j := by
  have ea : idx_main_v17 (idx_main_v19 (ix2 i j)) = ix1 i :=
    funext fun a => Fin.ext (by match a with | ⟨0, _⟩ => rfl)
  have eb : idx_main_v18 (idx_main_v20 (ix2 i j)) = ix1 j :=
    funext fun a => Fin.ext (by match a with | ⟨0, _⟩ => rfl)
  rw [val_main_v24_apply, val_main_v23_apply, val_main_v22_apply, val_main_v21_apply, val_main_v19_apply, val_main_v17_apply,
    val_main_v20_apply, val_main_v18_apply, ea, eb, diag_apply, mask_word]
  rfl

/-- The mask summed along row i is the number of positives of row i. -/
theorem posCount_apply (i : Fin 4096) :
    val_main_v25 (F := Ideal) x1 (ix1 i) = Cert.Spec.posCount (labOf x1) i := by
  have e : ∀ k : Fin 4096, idx_main_v25 (ix1 i) k = ix2 i k := fun k =>
    funext fun a => Fin.ext (by match a with | ⟨0, _⟩ => rfl | ⟨1, _⟩ => rfl)
  rw [val_main_v25_apply, val_main_cst_3_apply]
  simp only [Ideal.ofBits_def, Ideal.ofBits_zero_f32, zero_add, e, mask_apply]
  rfl

end Cert.ReferenceIdeal.RefValue

end
-- ==== Proof.RefValueLogit.lean ====
/-
  The reference's normalised features, their similarities and the logits, read at an entry.

  Row i's norm is the square root of the sum of its squares, clamped below by ε: the specification's `norm`.  The
  features divided by it are `feat`; the product of the feature matrix with its transpose is, at (i, j), the sum
  over k of feat i k · feat j k: `sim`.  The diagonal is then replaced by minus infinity and the matrix divided by
  the temperature 1, which changes nothing: `logit`.
-/
import proofs.«161315_j57664230916706_2_alg».proof.Proof.RefReadP
import proofs.«161315_j57664230916706_2_alg».proof.Proof.SpecArgs
import proofs.«161315_j57664230916706_2_alg».proof.Proof.RefValueLib
import proofs.«161315_j57664230916706_2_alg».proof.Proof.RefValueMask

noncomputable section

namespace Cert.ReferenceIdeal.RefValue

open Cert.ReferenceIdeal Cert.ReferenceIdeal.Gen Cert.ReferenceIdeal.ReadP Idealize.ShloMosaic Idealize.ShloMosaic.ValueIdx
open Cert.Spec Cert.RefValueLib
open scoped BigOperators

variable (x0 : FVec Ideal S4096x128 .f32)

/-- The clamped norm of row i, kept as a column. -/
theorem norm_apply (i : Fin 4096) (u : Fin 1) :
    val_main_v2 (F := Ideal) x0 (ix2 i u) = Cert.Spec.norm (featOf x0) i := by
  have e : ∀ k : Fin 128, idx_main_call0_v1 (idx_main_call0_v2 (ix2 i u)) k = ix2 i k := fun k =>
    funext fun a => Fin.ext (by match a with | ⟨0, _⟩ => rfl | ⟨1, _⟩ => rfl)
  rw [val_main_v2_apply, val_main_v0_apply, val_main_call0_v2_apply, val_main_call0_v1_apply, val_main_call0_cst_apply,
    val_main_v1_apply, val_main_cst_apply]
  simp only [val_main_call0_v0_apply, e, Ideal.maximumf_def, Ideal.hostUnary_sqrt_def, Ideal.mulf_def, Ideal.ofBits_def,
    Ideal.ofBits_zero_f32, zero_add]
  rfl

/-- The normalised feature (i, k). -/
theorem feat_apply (i : Fin 4096) (k : Fin 128) :
    val_main_v4 (F := Ideal) x0 (ix2 i k) = Cert.Spec.feat (featOf x0) i k := by
  have e : idx_main_v3 (ix2 i k) = ix2 i (0 : Fin 1) :=
    funext fun a => Fin.ext (by match a with | ⟨0, _⟩ => rfl | ⟨1, _⟩ => rfl)
  rw [val_main_v4_apply, val_main_v3_apply, e, norm_apply]
  simp only [Ideal.hostDivf_def]
  rfl

/-- The similarity of rows i and j: the product with the transpose is the sum over k of feat i k · feat j k. -/
theorem sim_apply (i j : Fin 4096) :
    val_main_v6 (F := Ideal) x0 (ix2 i j) = Cert.Spec.sim (featOf x0) i j := by
  have el : ∀ k : Fin 128, lidx_main_v6 (ix2 i j) k = ix2 i k := fun k =>
    funext fun a => Fin.ext (by match a with | ⟨0, _⟩ => rfl | ⟨1, _⟩ => rfl)
  have er : ∀ k : Fin 128, idx_main_v5 (ridx_main_v6 (ix2 i j) k) = ix2 j k := fun k =>
    funext fun a => Fin.ext (by match a with | ⟨0, _⟩ => rfl | ⟨1, _⟩ => rfl)
  rw [val_main_v6_apply]
  unfold Cert.Spec.sim
  refine Finset.sum_congr rfl fun k _ => ?_
  rw [val_main_v5_apply, el, er, feat_apply, feat_apply]

/-- The logit (i, j): minus infinity on the diagonal, the similarity off it; the division by 1 changes nothing. -/
theorem logit_apply (i j : Fin 4096) :
    val_main_v14 (F := Ideal) x0 (ix2 i j) = Cert.Spec.logit (featOf x0) i j := by
  rw [val_main_v14_apply, val_main_v12_apply, val_main_v13_apply, val_main_cst_1_apply, val_main_call1_v1_apply,
    val_main_call1_v0_apply, val_main_cst_0_apply, diag_apply, sim_apply, select_ite]
  simp only [Ideal.hostDivf_def, Ideal.ofBits_def, ofBits_one, ofBits_negInf, div_one]
  rfl

end Cert.ReferenceIdeal.RefValue

end
-- ==== Proof.RefValueRow.lean ====
/-
  The reference's per-row quantities, read at an entry.

  The log-softmax of row i of the logits at column j is (logit i j − M i) − log S i, with M i the row's maximum and
  S i = Σ_d exp(logit i d − M i).  Its diagonal is then set to 0, it is multiplied entry by entry with the mask and
  summed along the row; divided by the row's number of positives plus ε′ this is the specification's `refRow`.
-/
import proofs.«161315_j57664230916706_2_alg».proof.Proof.RefReadP
import proofs.«161315_j57664230916706_2_alg».proof.Proof.SpecArgs
import proofs.«161315_j57664230916706_2_alg».proof.Proof.RefValueLib
import proofs.«161315_j57664230916706_2_alg».proof.Proof.RefValueMask
import proofs.«161315_j57664230916706_2_alg».proof.Proof.RefValueLogit
import proofs.«161315_j57664230916706_2_alg».proof.Proof.LibLogSoftmax

noncomputable section

namespace Cert.ReferenceIdeal.RefValue

open Cert.ReferenceIdeal Cert.ReferenceIdeal.Gen Cert.ReferenceIdeal.ReadP Idealize.ShloMosaic Idealize.ShloMosaic.ValueIdx
open Cert.Spec Cert.RefValueLib
open scoped BigOperators

variable (x0 : FVec Ideal S4096x128 .f32) (x1 : IVec S4096 32)

/-- The log-softmax of row i at column j. -/
theorem logp_apply (i j : Fin 4096) :
    val_main_v15 (F := Ideal) x0 (ix2 i j)
      = (Cert.Spec.logit (featOf x0) i j - Cert.Spec.rowMax (featOf x0) i) - Ideal.log (Cert.Spec.expSum (featOf x0) i) := by
  have hx : ∀ d : Fin 4096, val_main_v14 (F := Ideal) x0 (ix2 i d) = Cert.Spec.logit (featOf x0) i d :=
    fun d => logit_apply x0 i d
  unfold val_main_v15 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1
  generalize val_main_v14 (F := Ideal) x0 = x at hx ⊢
  refine (Cert.LibLogSoftmax.host_apply x reducesTo_S4096x4096_S4096_d1 (by decide) h_S_ bcast_S_S4096
    bcast_S4096_S4096x1_0 bcast_S4096x1_S4096x4096_0_1 i j).trans ?_
  simp only [hx, ofBits_negInf]
  rfl

/-- The same with the diagonal set to 0. -/
theorem logpz_apply (i j : Fin 4096) :
    val_main_v16 (F := Ideal) x0 (ix2 i j)
      = if i = j then 0 else (Cert.Spec.logit (featOf x0) i j - Cert.Spec.rowMax (featOf x0) i)
          - Ideal.log (Cert.Spec.expSum (featOf x0) i) := by
  rw [val_main_v16_apply, val_main_call3_v1_apply, val_main_call3_v0_apply, val_main_cst_2_apply, diag_apply, logp_apply,
    select_ite]
  simp only [Ideal.ofBits_def, Ideal.ofBits_zero_f32]

/-- The masked row sum: the numerator of the row's loss. -/
theorem num_apply (i : Fin 4096) :
    val_main_v27 (F := Ideal) x0 x1 (ix1 i)
      = ∑ j, (if i = j then 0 else (Cert.Spec.logit (featOf x0) i j - Cert.Spec.rowMax (featOf x0) i)
          - Ideal.log (Cert.Spec.expSum (featOf x0) i)) * Cert.Spec.pos (labOf x1) i j := by
  have e : ∀ k : Fin 4096, idx_main_v27 (ix1 i) k = ix2 i k := fun k =>
    funext fun a => Fin.ext (by match a with | ⟨0, _⟩ => rfl | ⟨1, _⟩ => rfl)
  rw [val_main_v27_apply, val_main_cst_4_apply]
  simp only [Ideal.ofBits_def, Ideal.ofBits_zero_f32, zero_add, e, val_main_v26_apply, Ideal.mulf_def, logpz_apply, mask_apply]

/-- The reference's loss of row i. -/
theorem refRow_apply (i : Fin 4096) :
    val_main_v30 (F := Ideal) x0 x1 (ix1 i) = Cert.Spec.refRow (featOf x0) (labOf x1) i := by
  rw [val_main_v30_apply, val_main_v29_apply, val_main_v28_apply, val_main_cst_5_apply, num_apply, posCount_apply]
  simp only [Ideal.hostDivf_def, Ideal.addf_def, Ideal.ofBits_def]
  rfl

end Cert.ReferenceIdeal.RefValue

end
-- ==== Proof.RefValue.lean ====
/-
  The reference's result, read back from its run: index by index it is the specification's `refLoss` of the
  feature matrix and the labels.

  The rows' losses are summed from 0, the total negated and divided by the number of rows; with each row's loss the
  specification's `refRow` this is `refLoss`.  The run of the reference program then ends, on every device, with its
  result buffer at that value and its two arguments unchanged.
-/
import proofs.«161315_j57664230916706_2_alg».proof.Proof.RefReadP
import proofs.«161315_j57664230916706_2_alg».proof.Proof.Spec
import proofs.«161315_j57664230916706_2_alg».proof.Proof.SpecArgs
import proofs.«161315_j57664230916706_2_alg».proof.Proof.RefValueLib
import proofs.«161315_j57664230916706_2_alg».proof.Proof.RefValueRow

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.ValueIdx
open Cert.Spec Cert.RefValueLib
open scoped BigOperators

/-- The reference's result term, at the extended reals, is the specification's `refLoss` of its two arguments. -/
theorem result_eq (x0 : FVec Ideal S4096x128 .f32) (x1 : IVec S4096 32) :
    val_main_v33 (F := Ideal) x0 x1 = fun _ => Cert.Spec.refLoss (featOf x0) (labOf x1) := by
  funext i
  rw [val_main_v33_apply, val_main_v32_apply, val_main_v31_apply, val_main_cst_6_apply, val_main_cst_7_apply, sum_idx1]
  simp only [Ideal.hostDivf_def, Ideal.hostNegf_def, Ideal.negf_def, Ideal.ofBits_def, Ideal.ofBits_zero_f32, zero_add,
    refRow_apply]
  rfl

/-- On every device, from any memory with zero counters: every weakly fair execution of the reference program ends
    with its result at `refLoss` of the arguments' launch contents, and the arguments unchanged. -/
theorem run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v33)
          = (fun _ => Cert.Spec.refLoss (featOf (m ((c.tc : Thread nD τ).loc main_arg0)))
              (labOf (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run Cert.ReferenceIdeal.defs _ _).mono
    (fun _ h c => ⟨(h c).1.trans ((val_main_v33_eq m c).trans (result_eq _ _)), (h c).2⟩)
    (Cert.ReferenceIdeal.ValueP.run (F := Ideal) m ρ)

/-- The same run keeps the two arguments: on every device both are, at the end, what they were at the launch. -/
theorem frame (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1) :=
  (θ_run Cert.ReferenceIdeal.defs _ _).mono (fun _ h c => (h c).2) (run m ρ)

end Cert.ReferenceIdeal.RefValue

end
-- ==== Proof.LibFeatureFold.lean ====
/-
  The nine-feature fold. For real data, the contraction of the masked feature vector
  [x, y, z, e, x - cx, y - cy, cx, cy, zc] with nine real weights equals the mask times a five-term
  combination with folded weights (w0 + w4, w1 + w5, w6 - w4, w7 - w5) plus a per-pillar offset; both
  are the same real number. Also: extended reals that are reals are closed under +, -, *, negation,
  max, min and finite sums, and the coercion of a finite real sum is the sum of the coercions.
-/
import Idealize.ShloMosaic.PureOps.Ideal
import Mathlib.Algebra.BigOperators.Fin
import Mathlib.Tactic.Ring

noncomputable section

namespace Cert.Lib.FeatureFold

open Idealize.ShloMosaic

/-! ### Extended reals that are reals -/

/-- An extended real that is (the coercion of) a real. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Division of a real by a nonzero real is a real. -/
theorem IsReal.div_coe {a : EReal} (ha : IsReal a) {n : ℝ} (hn : n ≠ 0) : IsReal (Ideal.div a (n : EReal)) := by
  rw [Ideal.div_coe hn]; exact ha.mul (isReal_coe _)

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of two real vectors, read on the extended reals, is the real contraction. -/
theorem coe_sum_mul {ι : Type*} (s : Finset ι) (f g : ι → ℝ) :
    (∑ i ∈ s, (f i : EReal) * (g i : EReal)) = ((∑ i ∈ s, f i * g i : ℝ) : EReal) := by
  simp only [← EReal.coe_mul, ← coe_sum]

/-! ### The fold -/

/-- A sum over nine indices, written out. -/
theorem sum_fin9 {M : Type*} [AddCommMonoid M] (g : Fin 9 → M) :
    ∑ i, g i = g 0 + g 1 + g 2 + g 3 + g 4 + g 5 + g 6 + g 7 + g 8 := by
  rw [Fin.sum_univ_castSucc, Fin.sum_univ_eight]
  rfl

/-- The folded form as a real: mask times (five folded terms plus the per-pillar offset). -/
def foldR (x y z e cx cy zc mk : ℝ) (w : Fin 9 → ℝ) : ℝ :=
  mk * ((((x * (w 0 + w 4) + y * (w 1 + w 5)) + z * w 2) + e * w 3)
    + ((cx * (w 6 - w 4) + cy * (w 7 - w 5)) + zc * w 8))

/-- The nine-term contraction of the masked features with the weights, over the reals. -/
theorem concat_real (x y z e cx cy zc mk : ℝ) (w : Fin 9 → ℝ) :
    (∑ i : Fin 9, ((![x, y, z, e, x - cx, y - cy, cx, cy, zc] : Fin 9 → ℝ) i * mk) * w i)
      = foldR x y z e cx cy zc mk w := by
  rw [sum_fin9]
  show (x * mk) * w 0 + (y * mk) * w 1 + (z * mk) * w 2 + (e * mk) * w 3 + ((x - cx) * mk) * w 4
      + ((y - cy) * mk) * w 5 + (cx * mk) * w 6 + (cy * mk) * w 7 + (zc * mk) * w 8 = _
  unfold foldR
  ring

/-- The nine-term contraction on the extended reals is the real folded value. -/
theorem concat_ereal (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = ((foldR x y z e cx cy zc mk w : ℝ) : EReal) := by
  rw [sum_fin9]
  show ((x : EReal) * (mk : EReal)) * (w 0 : EReal) + ((y : EReal) * (mk : EReal)) * (w 1 : EReal)
      + ((z : EReal) * (mk : EReal)) * (w 2 : EReal) + ((e : EReal) * (mk : EReal)) * (w 3 : EReal)
      + (((x : EReal) - (cx : EReal)) * (mk : EReal)) * (w 4 : EReal)
      + (((y : EReal) - (cy : EReal)) * (mk : EReal)) * (w 5 : EReal)
      + ((cx : EReal) * (mk : EReal)) * (w 6 : EReal) + ((cy : EReal) * (mk : EReal)) * (w 7 : EReal)
      + ((zc : EReal) * (mk : EReal)) * (w 8 : EReal) = _
  simp only [← EReal.coe_mul, ← EReal.coe_add, ← EReal.coe_sub]
  exact congrArg _ (by unfold foldR; ring)

/-- The folded spelling on the extended reals is the same real. -/
theorem folded_ereal (x y z e cx cy zc mk : ℝ) (w : Fin 9 → ℝ) :
    (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal)))
      = ((foldR x y z e cx cy zc mk w : ℝ) : EReal) := by
  simp only [← EReal.coe_mul, ← EReal.coe_add, ← EReal.coe_sub]
  rfl

/-- The fold: the nine-term contraction equals the folded spelling, on the extended reals. -/
theorem concat_eq_folded (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal))) :=
  (concat_ereal x y z e cx cy zc mk w).trans (folded_ereal x y z e cx cy zc mk w).symm

/-- The folded value is a real. -/
theorem concat_isReal (x y z e cx cy zc mk : ℝ) (w : Fin 9 → ℝ) :
    IsReal (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal)) :=
  ⟨_, concat_ereal x y z e cx cy zc mk w⟩

end Cert.Lib.FeatureFold

end
-- ==== Proof.LibMaskedSoftmax.lean ====
/-
  Extended-real facts about a masked softmax row.

  A row of logits `ℓ` over a finite index set has some lanes masked out: those hold `-∞`
  (`⊥`), every other lane holds a real number. With `M` the row maximum (the fold of `max`
  from `⊥`), `P d = exp (ℓ d - M)` and `S = ∑ d, P d`, one program forms `P j / S` and
  multiplies it by the 0/1 indicator of `⊥ < M`; another selects `P j / S` at the lanes that
  are not masked out and `0` at the masked ones. The two agree lane by lane
  (`masked_softmax_guard`). The arithmetic is that of the ideal float values: `exp ⊥ = 0`,
  `x / 0` an infinity or `⊥`, `x / y = x * y⁻¹` otherwise.

  Also here: the value of a comparison bit widened to an integer and converted to a float
  (`guard_eq`), and the conversion of a signed integer word to a float as an exact, finite
  and injective map (`sitofp_eq`, `sitofp_ne_bot`, `sitofp_ne_top`, `sitofp_inj`,
  `cmpf_oeq_sitofp`).
-/
import Idealize.ShloMosaic.PureOps.Ideal
import Idealize.ShloMosaic.PureOps.Ideal.Laws
import Mathlib.Data.EReal.Operations
import Mathlib.Data.Finset.Fold
import Mathlib.Algebra.Order.BigOperators.Group.Finset

open Idealize.ShloMosaic

namespace Cert.LibMaskedSoftmax

open scoped BigOperators

/-! ### The exponential of the ideal values -/

/-- The exponential of an extended real is never negative: `exp ⊥ = 0`, `exp ⊤ = ⊤`, and a real
    exponential is positive. -/
theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

/-- `exp (⊥ - y) = 0` whatever `y` is: on the extended reals `⊥ - y = ⊥`, and `exp ⊥ = 0`. -/
theorem exp_bot_sub (y : EReal) : Ideal.exp (⊥ - y) = 0 := by
  rw [EReal.bot_sub, Ideal.exp_bot]

/-- `exp (x - x) = 1` at a real number `x` (neither infinity): `x - x = 0` and `exp 0 = 1`. -/
theorem exp_sub_self {x : EReal} (hb : x ≠ ⊥) (ht : x ≠ ⊤) : Ideal.exp (x - x) = 1 := by
  rw [EReal.sub_self ht hb, ← EReal.coe_zero, Ideal.exp_coe, Real.exp_zero, EReal.coe_one]

/-- A quotient with numerator `0` and a divisor other than `0` is `0`: it is `0 * y⁻¹`. -/
theorem div_zero_left {y : EReal} (hy : y ≠ 0) : Ideal.div 0 y = 0 := by
  rw [Ideal.div, if_neg hy, zero_mul]

/-! ### The row maximum -/

section Row
variable {ι : Type*} [Fintype ι] (ℓ : ι → EReal)

/-- Every lane is at most the row maximum. -/
theorem le_rowMax (j : ι) : ℓ j ≤ (Finset.univ : Finset ι).fold max ⊥ ℓ :=
  (Finset.le_fold_max (ℓ j)).mpr (Or.inr ⟨j, Finset.mem_univ j, le_rfl⟩)

/-- A row maximum above `-∞` is attained: some lane holds it. -/
theorem exists_eq_rowMax (h : ⊥ < (Finset.univ : Finset ι).fold max ⊥ ℓ) :
    ∃ d, ℓ d = (Finset.univ : Finset ι).fold max ⊥ ℓ := by
  rcases (Finset.le_fold_max ((Finset.univ : Finset ι).fold max ⊥ ℓ)).mp le_rfl with hb | ⟨d, _, hd⟩
  · exact absurd h (not_lt.mpr hb)
  · exact ⟨d, le_antisymm (le_rowMax ℓ d) hd⟩

/-- When no lane holds `+∞` and the row maximum `M` is above `-∞`, the sum of `exp (ℓ d - M)` over the row is
    at least `1`: the maximum is attained at a lane, it is a real number there, that lane's term is `exp 0 = 1`,
    and no term is negative. -/
theorem one_le_sum_exp (ht : ∀ j, ℓ j ≠ ⊤) (h : ⊥ < (Finset.univ : Finset ι).fold max ⊥ ℓ) :
    1 ≤ ∑ d, Ideal.exp (ℓ d - (Finset.univ : Finset ι).fold max ⊥ ℓ) := by
  obtain ⟨d0, hd0⟩ := exists_eq_rowMax ℓ h
  have h1 : Ideal.exp (ℓ d0 - (Finset.univ : Finset ι).fold max ⊥ ℓ) = 1 := by
    rw [← hd0]; exact exp_sub_self (hd0 ▸ h.ne') (ht d0)
  calc (1 : EReal) = Ideal.exp (ℓ d0 - (Finset.univ : Finset ι).fold max ⊥ ℓ) := h1.symm
    _ ≤ ∑ d, Ideal.exp (ℓ d - (Finset.univ : Finset ι).fold max ⊥ ℓ) :=
        Finset.single_le_sum (f := fun d => Ideal.exp (ℓ d - (Finset.univ : Finset ι).fold max ⊥ ℓ))
          (fun i _ => exp_nonneg _) (Finset.mem_univ d0)

/-- The masked softmax row, with the row maximum and the row sum named. `ℓ` holds `-∞` exactly at the lanes that are
    not `valid` and never `+∞`; `M` is the row maximum, `S` the sum of `exp (ℓ d - M)`. Then the quotient
    `exp (ℓ j - M) / S` times the indicator of `-∞ < M` is the quotient at a valid lane and `0` at any other.
    At a valid lane `ℓ j ≤ M` is above `-∞`, the indicator is `1`. At a lane that is not valid `ℓ j - M = -∞`, so the
    numerator is `exp (-∞) = 0`; the indicator `0` gives `0`, and the indicator `1` means `S ≥ 1`, so the quotient is
    `0 * S⁻¹ = 0`. -/
theorem masked_softmax_guard_of_eq (valid : ι → Prop) [DecidablePred valid]
    (hv : ∀ j, valid j → ℓ j ≠ ⊥) (hn : ∀ j, ¬ valid j → ℓ j = ⊥) (ht : ∀ j, ℓ j ≠ ⊤)
    (M S : EReal) (hM : M = (Finset.univ : Finset ι).fold max ⊥ ℓ) (hS : S = ∑ d, Ideal.exp (ℓ d - M)) (j : ι) :
    Ideal.div (Ideal.exp (ℓ j - M)) S * (if ⊥ < M then (1 : EReal) else 0)
      = if valid j then Ideal.div (Ideal.exp (ℓ j - M)) S else 0 := by
  by_cases hj : valid j
  · have hlt : ⊥ < M := lt_of_lt_of_le (bot_lt_iff_ne_bot.mpr (hv j hj)) (hM ▸ le_rowMax ℓ j)
    rw [if_pos hj, if_pos hlt, mul_one]
  · rw [if_neg hj, hn j hj, exp_bot_sub]
    by_cases hlt : ⊥ < M
    · have hS1 : (1 : EReal) ≤ S := by
        rw [hS, hM]; exact one_le_sum_exp ℓ ht (hM ▸ hlt)
      have hS0 : S ≠ 0 := (lt_of_lt_of_le zero_lt_one hS1).ne'
      rw [if_pos hlt, mul_one, div_zero_left hS0]
    · rw [if_neg hlt, mul_zero]

/-- The masked softmax row, spelled out: with `M` the fold of `max` from `⊥` over the row and `S` the sum over the row
    of `exp (ℓ d - M)`, the guarded quotient is the quotient at a valid lane and `0` at a masked one. -/
theorem masked_softmax_guard (valid : ι → Prop) [DecidablePred valid]
    (hv : ∀ j, valid j → ℓ j ≠ ⊥) (hn : ∀ j, ¬ valid j → ℓ j = ⊥) (ht : ∀ j, ℓ j ≠ ⊤) (j : ι) :
    Ideal.div (Ideal.exp (ℓ j - (Finset.univ : Finset ι).fold max ⊥ ℓ))
          (∑ d, Ideal.exp (ℓ d - (Finset.univ : Finset ι).fold max ⊥ ℓ))
        * (if ⊥ < (Finset.univ : Finset ι).fold max ⊥ ℓ then (1 : EReal) else 0)
      = if valid j then
          Ideal.div (Ideal.exp (ℓ j - (Finset.univ : Finset ι).fold max ⊥ ℓ))
            (∑ d, Ideal.exp (ℓ d - (Finset.univ : Finset ι).fold max ⊥ ℓ))
        else 0 :=
  masked_softmax_guard_of_eq ℓ valid hv hn ht _ _ rfl rfl j

end Row

/-! ### A comparison bit as a float, and the conversion of an integer word -/

section Scalars
variable {φ ψ : FTy}

/-- The conversion of a signed integer word to a float is the integer itself, as a real number. -/
@[simp] theorem sitofp_eq {w : Nat} (a : BitVec w) :
    FloatOps.sitofp (F := Ideal) φ a = ((a.toInt : ℝ) : EReal) := rfl

/-- A converted integer is a real number: it is not `-∞`. -/
theorem sitofp_ne_bot {w : Nat} (a : BitVec w) : FloatOps.sitofp (F := Ideal) φ a ≠ ⊥ :=
  EReal.coe_ne_bot _

/-- A converted integer is a real number: it is not `+∞`. -/
theorem sitofp_ne_top {w : Nat} (a : BitVec w) : FloatOps.sitofp (F := Ideal) φ a ≠ ⊤ :=
  EReal.coe_ne_top _

/-- The conversion is injective: two words convert to the same value exactly when they are the same word
    (a word is determined by its signed value, and integers embed in the reals). -/
theorem sitofp_inj {w : Nat} (a b : BitVec w) :
    FloatOps.sitofp (F := Ideal) φ a = FloatOps.sitofp (F := Ideal) φ b ↔ a = b := by
  rw [sitofp_eq, sitofp_eq, EReal.coe_eq_coe_iff, Int.cast_inj, BitVec.toInt_inj]

/-- The same on the real-number form of the conversion. -/
theorem coe_toInt_inj {w : Nat} (a b : BitVec w) :
    (((a.toInt : ℝ) : EReal) = ((b.toInt : ℝ) : EReal)) ↔ a = b := by
  rw [EReal.coe_eq_coe_iff, Int.cast_inj, BitVec.toInt_inj]

/-- The one-bit result of the comparison `x > y`, zero-extended to 32 bits and converted to a float, is `1` where
    `y < x` and `0` elsewhere. -/
@[simp high] theorem guard_eq (x y : Ideal φ) :
    FloatOps.sitofp (F := Ideal) ψ ((FloatOps.cmpf .ogt x y).setWidth 32)
      = if y < x then (1 : EReal) else 0 := by
  rw [sitofp_eq, Ideal.cmpf_def, Ideal.cmp]
  by_cases h : y < x
  · rw [if_pos h, decide_eq_true h]
    have : ((BitVec.ofBool true).setWidth 32).toInt = 1 := by decide
    rw [this]; simp
  · rw [if_neg h, decide_eq_false h]
    have : ((BitVec.ofBool false).setWidth 32).toInt = 0 := by decide
    rw [this]; simp

/-- The same with the conversion already written as a real number. -/
@[simp] theorem guard_eq_toInt (x y : Ideal φ) :
    ((((FloatOps.cmpf .ogt x y).setWidth 32).toInt : ℝ) : EReal) = if y < x then (1 : EReal) else 0 :=
  guard_eq (ψ := .f32) x y

/-- The same with the comparison already written as the order's. -/
@[simp] theorem guard_eq_cmp (x y : EReal) :
    ((((Ideal.cmp .ogt x y).setWidth 32).toInt : ℝ) : EReal) = if y < x then (1 : EReal) else 0 :=
  guard_eq (φ := .f32) (ψ := .f32) x y

/-- On whole vectors: the comparison `m > c` lane by lane, zero-extended to 32 bits and converted to a float, is the
    0/1 indicator of `c i < m i` at each lane. -/
theorem guard_vec_eq {s : Shape} (m c : FVec Ideal s φ) (h : 1 < 32) :
    (sitofp ψ (extui 32 (cmpf .ogt m c) h) : FVec Ideal s ψ) = fun i => if c i < m i then (1 : EReal) else 0 :=
  funext fun i => guard_eq (m i) (c i)

/-- The float equality test of two converted integer words is the integer equality test of the words: the conversion
    is exact and injective. -/
@[simp high] theorem cmpf_oeq_sitofp {w : Nat} (a b : BitVec w) :
    FloatOps.cmpf .oeq (FloatOps.sitofp (F := Ideal) φ a) (FloatOps.sitofp (F := Ideal) φ b) = IntOp.cmpi .eq a b := by
  rw [Ideal.cmpf_def, Ideal.cmp, IntOp.cmpi]
  congr 1
  rw [Bool.beq_eq_decide_eq]
  exact decide_eq_decide.mpr (sitofp_inj a b)

/-- The same with the conversions already written as real numbers. -/
@[simp] theorem cmpf_oeq_coe_toInt {w : Nat} (a b : BitVec w) :
    FloatOps.cmpf (F := Ideal) (φ := φ) .oeq ((a.toInt : ℝ) : EReal) ((b.toInt : ℝ) : EReal) = IntOp.cmpi .eq a b :=
  cmpf_oeq_sitofp a b

/-- The same with the comparison already written as the order's. -/
@[simp] theorem cmp_oeq_coe_toInt {w : Nat} (a b : BitVec w) :
    Ideal.cmp .oeq ((a.toInt : ℝ) : EReal) ((b.toInt : ℝ) : EReal) = IntOp.cmpi .eq a b :=
  cmpf_oeq_sitofp (φ := .f32) a b

/-- On whole vectors: the float equality test of two converted integer vectors is the integer equality test, lane by
    lane. -/
theorem cmpf_oeq_sitofp_vec {s : Shape} {w : Nat} (a b : IVec s w) :
    cmpf .oeq (sitofp φ a : FVec Ideal s φ) (sitofp φ b) = cmpi .eq a b :=
  funext fun i => cmpf_oeq_sitofp (a i) (b i)

end Scalars

end Cert.LibMaskedSoftmax
-- ==== Proof.SpecLawFinite.lean ====
/-
  Finiteness of every intermediate value of the two loss formulas when the feature matrix is finite.

  With every X i k a real number: the sum of squares of a row is a real ≥ 0, so its square root is a real ≥ 0 and the
  clamped norm max(‖X i‖, ε) is a real > 0 (ε is a positive real); a feature, a real divided by a nonzero real, is a
  real; a similarity, a finite sum of products of reals, is a real. So row i of the logits holds −∞ at the diagonal lane
  and a real at every other lane. The row maximum is then attained at a lane off the diagonal (there is one: 4096 > 1)
  and is a real; every term exp(logit − max) is a real ≥ 0, the diagonal term being exp(−∞) = 0, and the term at a lane
  attaining the maximum is exp 0 = 1, so the sum of the exponentials is a real ≥ 1 and its logarithm is a real.
-/
import proofs.«161315_j57664230916706_2_alg».proof.Proof.Spec
import proofs.«161315_j57664230916706_2_alg».proof.Proof.LibFeatureFold
import proofs.«161315_j57664230916706_2_alg».proof.Proof.LibMaskedSoftmax

noncomputable section

namespace Cert.Spec

open Idealize.ShloMosaic
open Cert.Lib.FeatureFold
open scoped BigOperators

/-! ### The two small literals are positive reals -/

/-- The clamp of the norm, 9223372 · 2⁻⁶³, is a positive real. -/
theorem epsNorm_pos : ∃ e : ℝ, 0 < e ∧ epsNorm = (e : EReal) :=
  ⟨9223372 * (2 ^ 63)⁻¹, by positivity, by simp [Ideal.ofBits, Ideal.ieee, -EReal.coe_mul]⟩

/-- The guard of the positive count, 10995116 · 2⁻⁴⁰, is a positive real. -/
theorem epsPos_pos : ∃ e : ℝ, 0 < e ∧ epsPos = (e : EReal) :=
  ⟨10995116 * (2 ^ 40)⁻¹, by positivity, by simp [Ideal.ofBits, Ideal.ieee, -EReal.coe_mul]⟩

/-! ### Reals among the extended reals -/

theorem isReal_ne_top {a : EReal} (h : IsReal a) : a ≠ ⊤ := by
  obtain ⟨r, rfl⟩ := h; exact EReal.coe_ne_top r

theorem isReal_ne_bot {a : EReal} (h : IsReal a) : a ≠ ⊥ := by
  obtain ⟨r, rfl⟩ := h; exact EReal.coe_ne_bot r

/-- The square of a real is not negative. -/
theorem mul_self_nonneg_of_isReal {a : EReal} (ha : IsReal a) : 0 ≤ a * a := by
  obtain ⟨r, rfl⟩ := ha
  rw [← EReal.coe_mul]; exact EReal.coe_nonneg.mpr (mul_self_nonneg r)

/-- The square root of a real ≥ 0 is a real. -/
theorem isReal_sqrt {a : EReal} (ha : IsReal a) (h0 : 0 ≤ a) : IsReal (Ideal.sqrt a) := by
  obtain ⟨r, rfl⟩ := ha
  have hr : ¬ r < 0 := not_lt.mpr (EReal.coe_nonneg.mp h0)
  exact ⟨Real.sqrt r, by rw [Ideal.sqrt_coe, if_neg hr]⟩

/-- The exponential of a real is a real. -/
theorem isReal_exp {a : EReal} (ha : IsReal a) : IsReal (Ideal.exp a) := by
  obtain ⟨r, rfl⟩ := ha; exact ⟨Real.exp r, Ideal.exp_coe r⟩

/-- The logarithm of a real > 0 is a real. -/
theorem isReal_log {a : EReal} (ha : IsReal a) (h0 : 0 < a) : IsReal (Ideal.log a) := by
  obtain ⟨r, rfl⟩ := ha
  have hr : ¬ r ≤ 0 := not_le.mpr (EReal.coe_pos.mp h0)
  exact ⟨Real.log r, by rw [Ideal.log_coe, if_neg hr]⟩

/-! ### The logits -/

/-- The diagonal lane of a row of the logits holds −∞. -/
theorem logit_self (X : Fin 4096 → Fin 128 → EReal) (i : Fin 4096) : logit X i i = ⊥ := if_pos rfl

section Finite
variable {X : Fin 4096 → Fin 128 → EReal} (hX : ∀ i k, ∃ r : ℝ, X i k = (r : EReal))
include hX

/-- The clamped norm of a row is a real > 0. -/
theorem norm_pos_real (i : Fin 4096) : ∃ n : ℝ, 0 < n ∧ norm X i = (n : EReal) := by
  obtain ⟨e, he, hE⟩ := epsNorm_pos
  have hs : IsReal (∑ k, X i k * X i k) := IsReal.sum _ _ fun k _ => IsReal.mul (hX i k) (hX i k)
  have h0 : 0 ≤ ∑ k, X i k * X i k := Finset.sum_nonneg fun k _ => mul_self_nonneg_of_isReal (hX i k)
  have hq : IsReal (Ideal.sqrt (∑ k, X i k * X i k)) := isReal_sqrt hs h0
  have hn : IsReal (norm X i) := by
    unfold norm; rw [hE]; exact hq.max (isReal_coe e)
  have hp : (0 : EReal) < norm X i := by
    unfold norm; rw [hE]; exact lt_of_lt_of_le (EReal.coe_pos.mpr he) (le_max_right _ _)
  obtain ⟨n, hn⟩ := hn
  refine ⟨n, ?_, hn⟩
  rw [hn] at hp; exact EReal.coe_pos.mp hp

/-- A normalised feature is a real. -/
theorem feat_real (i : Fin 4096) (k : Fin 128) : IsReal (feat X i k) := by
  obtain ⟨n, hn0, hn⟩ := norm_pos_real hX i
  unfold feat; rw [hn]; exact IsReal.div_coe (hX i k) hn0.ne'

/-- A similarity is a real. -/
theorem sim_real (i j : Fin 4096) : IsReal (sim X i j) :=
  IsReal.sum _ _ fun k _ => (feat_real hX i k).mul (feat_real hX j k)

/-- Off the diagonal a logit is a real. -/
theorem logit_real {i j : Fin 4096} (h : i ≠ j) : IsReal (logit X i j) := by
  unfold logit; rw [if_neg h]; exact sim_real hX i j

/-- No logit is +∞. -/
theorem logit_ne_top (i j : Fin 4096) : logit X i j ≠ ⊤ := by
  by_cases h : i = j
  · subst h; rw [logit_self]; exact bot_ne_top
  · exact isReal_ne_top (logit_real hX h)

/-- The row maximum is above −∞: a lane off the diagonal holds a real. -/
theorem bot_lt_rowMax (i : Fin 4096) : ⊥ < rowMax X i := by
  obtain ⟨j, hj⟩ := exists_ne i
  exact lt_of_lt_of_le (bot_lt_iff_ne_bot.mpr (isReal_ne_bot (logit_real hX hj.symm)))
    (Cert.LibMaskedSoftmax.le_rowMax (logit X i) j)

/-- The row maximum is a real: it is attained, and not at the diagonal lane. -/
theorem rowMax_real (i : Fin 4096) : IsReal (rowMax X i) := by
  have hb := bot_lt_rowMax hX i
  obtain ⟨d, hd⟩ := Cert.LibMaskedSoftmax.exists_eq_rowMax (logit X i) hb
  have hdi : i ≠ d := by
    rintro rfl
    rw [logit_self] at hd
    exact hb.ne hd
  have hr := logit_real hX hdi
  rw [hd] at hr; exact hr

/-- The sum of the exponentials of a row is a real ≥ 1. -/
theorem expSum_real (i : Fin 4096) : ∃ s : ℝ, 1 ≤ s ∧ expSum X i = (s : EReal) := by
  have hM := rowMax_real hX i
  have hterm : ∀ j, IsReal (Ideal.exp (logit X i j - rowMax X i)) := by
    intro j
    by_cases h : i = j
    · subst h; rw [logit_self, Cert.LibMaskedSoftmax.exp_bot_sub]; exact isReal_zero
    · exact isReal_exp ((logit_real hX h).sub hM)
  obtain ⟨s, hs⟩ : IsReal (expSum X i) := IsReal.sum _ _ fun j _ => hterm j
  have h1 : (1 : EReal) ≤ expSum X i :=
    Cert.LibMaskedSoftmax.one_le_sum_exp (logit X i) (logit_ne_top hX i) (bot_lt_rowMax hX i)
  refine ⟨s, ?_, hs⟩
  rw [hs, ← EReal.coe_one] at h1; exact EReal.coe_le_coe_iff.mp h1

/-- The logarithm of the sum of the exponentials of a row is a real. -/
theorem logExpSum_real (i : Fin 4096) : IsReal (Ideal.log (expSum X i)) := by
  obtain ⟨s, hs1, hs⟩ := expSum_real hX i
  rw [hs]; exact isReal_log (isReal_coe s) (EReal.coe_pos.mpr (lt_of_lt_of_le one_pos hs1))

end Finite

end Cert.Spec

end
-- ==== Proof.SpecLaw.lean ====
/-
  The two loss formulas agree on a finite feature matrix.

  Fix a row i. Write p j ∈ {0, 1} for the positives indicator (p i = 0), c = Σ_j p j, ℓ j for the logits of the row
  (ℓ i = −∞, every other ℓ j a real), M for the row maximum and L for the logarithm of the sum of the exponentials (both
  reals). The kernel's numerator is Σ_j p j · ℓ j − c · (M + L); the reference's is Σ_j (i = j ? 0 : (ℓ j − M) − L) · p j.
  At j = i both summands vanish (0 · (−∞) = 0 on the extended reals, and 0 · 0 = 0); at j ≠ i every factor is a real
  and the two sides differ by distributivity. So both numerators are the coercion of the one real
  T = Σ_j p j · ((ℓ j − M) − L). The denominator c + ε′ is a real > 0 (c ≥ 0, ε′ > 0), so both quotients are the
  coercion of the real D = T / (c + ε′): the reference's row loss is D and the kernel's is 0 − D = −D. Summing over the
  rows, a finite sum of reals, Σ_i (−D i) = −Σ_i D i, and the two results are the same quotient by the number of rows.
  Distributivity fails at the infinities of the extended reals, which is why the computation is made on real
  witnesses and coerced back.
-/
import proofs.«161315_j57664230916706_2_alg».proof.Proof.SpecLawFinite

noncomputable section

namespace Cert.Spec

open Idealize.ShloMosaic
open Cert.Lib.FeatureFold
open scoped BigOperators

/-! ### The positives indicator as a real -/

/-- The positives indicator, as a real number. -/
def posR (lab : Fin 4096 → BitVec 32) (i j : Fin 4096) : ℝ := if lab i = lab j ∧ i ≠ j then 1 else 0

theorem pos_eq (lab : Fin 4096 → BitVec 32) (i j : Fin 4096) : pos lab i j = (posR lab i j : EReal) := by
  unfold pos posR
  by_cases h : lab i = lab j ∧ i ≠ j
  · rw [if_pos h, if_pos h, EReal.coe_one]
  · rw [if_neg h, if_neg h, EReal.coe_zero]

theorem posR_self (lab : Fin 4096 → BitVec 32) (i : Fin 4096) : posR lab i i = 0 :=
  if_neg fun h => h.2 rfl

theorem posR_nonneg (lab : Fin 4096 → BitVec 32) (i j : Fin 4096) : 0 ≤ posR lab i j := by
  unfold posR; split_ifs
  · exact zero_le_one
  · exact le_rfl

theorem posCount_eq (lab : Fin 4096 → BitVec 32) (i : Fin 4096) :
    posCount lab i = ((∑ j, posR lab i j : ℝ) : EReal) := by
  unfold posCount; rw [coe_sum]; exact Finset.sum_congr rfl fun j _ => pos_eq lab i j

/-! ### One row -/

section Finite
variable {X : Fin 4096 → Fin 128 → EReal} (lab : Fin 4096 → BitVec 32)
  (hX : ∀ i k, ∃ r : ℝ, X i k = (r : EReal))
include hX

/-- The two numerators of row i are the coercion of one real. -/
theorem row_numerators (i : Fin 4096) :
    ∃ T : ℝ,
      ((∑ j, pos lab i j * logit X i j) - posCount lab i * (rowMax X i + Ideal.log (expSum X i)) = (T : EReal)) ∧
      (∑ j, (if i = j then 0 else (logit X i j - rowMax X i) - Ideal.log (expSum X i)) * pos lab i j) = (T : EReal) := by
  obtain ⟨m, hm⟩ := rowMax_real hX i
  obtain ⟨L, hL⟩ := logExpSum_real hX i
  have hl : ∀ j, ∃ r : ℝ, i ≠ j → logit X i j = (r : EReal) := fun j => by
    by_cases h : i = j
    · exact ⟨0, fun h' => absurd h h'⟩
    · obtain ⟨r, hr⟩ := logit_real hX h
      exact ⟨r, fun _ => hr⟩
  choose l hl using hl
  refine ⟨∑ j, posR lab i j * ((l j - m) - L), ?_, ?_⟩
  · -- the kernel's numerator
    have h1 : ∀ j, pos lab i j * logit X i j = ((posR lab i j * l j : ℝ) : EReal) := fun j => by
      by_cases h : i = j
      · subst h
        rw [pos_eq, posR_self, EReal.coe_zero, zero_mul, zero_mul, EReal.coe_zero]
      · rw [pos_eq, hl j h, EReal.coe_mul]
    have e1 : (∑ j, pos lab i j * logit X i j) = ((∑ j, posR lab i j * l j : ℝ) : EReal) := by
      rw [coe_sum]; exact Finset.sum_congr rfl fun j _ => h1 j
    rw [e1, posCount_eq, hm, hL, ← EReal.coe_add, ← EReal.coe_mul, ← EReal.coe_sub, EReal.coe_eq_coe_iff,
      Finset.sum_mul, ← Finset.sum_sub_distrib]
    exact Finset.sum_congr rfl fun j _ => by ring
  · -- the reference's numerator
    have h2 : ∀ j, (if i = j then 0 else (logit X i j - rowMax X i) - Ideal.log (expSum X i)) * pos lab i j
        = ((posR lab i j * ((l j - m) - L) : ℝ) : EReal) := fun j => by
      by_cases h : i = j
      · subst h
        rw [if_pos rfl, zero_mul, posR_self, zero_mul, EReal.coe_zero]
      · rw [if_neg h, pos_eq, hl j h, hm, hL, ← EReal.coe_sub, ← EReal.coe_sub, ← EReal.coe_mul, mul_comm]
    rw [coe_sum]; exact Finset.sum_congr rfl fun j _ => h2 j

/-- The reference's loss of row i is a real, and the kernel's is its negative. -/
theorem row_eq (i : Fin 4096) :
    ∃ d : ℝ, refRow X lab i = (d : EReal) ∧ kerRow X lab i = ((-d : ℝ) : EReal) := by
  obtain ⟨T, hk, hr⟩ := row_numerators lab hX i
  obtain ⟨e, he, hE⟩ := epsPos_pos
  have hc : 0 ≤ ∑ j, posR lab i j := Finset.sum_nonneg fun j _ => posR_nonneg lab i j
  have hden : posCount lab i + epsPos = (((∑ j, posR lab i j) + e : ℝ) : EReal) := by
    rw [posCount_eq, hE, EReal.coe_add]
  have hne : (∑ j, posR lab i j) + e ≠ 0 := (add_pos_of_nonneg_of_pos hc he).ne'
  refine ⟨T * (1 / ((∑ j, posR lab i j) + e)), ?_, ?_⟩
  · unfold refRow; rw [hr, hden, Ideal.div_coe hne, ← EReal.coe_mul]
  · unfold kerRow; rw [hk, hden, Ideal.div_coe hne, ← EReal.coe_mul, EReal.coe_neg, zero_sub]

end Finite

/-! ### The two results -/

/-- On a finite feature matrix the kernel's result and the reference's are the same extended real. -/
theorem kerLoss_eq_refLoss (X : Fin 4096 → Fin 128 → EReal) (lab : Fin 4096 → BitVec 32)
    (hX : ∀ i k, ∃ r : ℝ, X i k = (r : EReal)) : kerLoss X lab = refLoss X lab := by
  choose d hd_ref hd_ker using row_eq lab hX
  have hk : (∑ i, kerRow X lab i) = -(∑ i, refRow X lab i) := by
    have ek : (∑ i, kerRow X lab i) = ((∑ i, -d i : ℝ) : EReal) := by
      rw [coe_sum]; exact Finset.sum_congr rfl fun i _ => hd_ker i
    have er : (∑ i, refRow X lab i) = ((∑ i, d i : ℝ) : EReal) := by
      rw [coe_sum]; exact Finset.sum_congr rfl fun i _ => hd_ref i
    rw [ek, er, ← EReal.coe_neg, Finset.sum_neg_distrib]
  unfold kerLoss refLoss; rw [hk]

end Cert.Spec

end
-- ==== Proof.PreFinite.lean ====
/-
  The precondition says every feature is a real.

  The precondition compares |x| with +∞ at every entry x of the feature matrix and takes the conjunction of all the
  comparison bits, starting from 1. If the conjunction is 1 then every bit is 1, that is |x| < +∞ at every entry. On the
  extended reals |x| = max x (−x), and max x (−x) < +∞ excludes x = +∞ and x = −∞ (whose negative is +∞): x is a real.
-/
import proofs.«161315_j57664230916706_2_alg».proof.Pre_finite_inputs
import proofs.«161315_j57664230916706_2_alg».proof.Proof.Gen.Pre_finite_inputs
import proofs.«161315_j57664230916706_2_alg».proof.Proof.SpecArgs
import Idealize.ShloMosaic.Lib.ReduceAll
import Idealize.ShloMosaic.Lib.ValueIdx

noncomputable section

namespace Cert.Spec

open Idealize.ShloMosaic Idealize.ShloMosaic.ValueIdx

/-- The scalar shape has one index. -/
instance subsingleton_scalar_idx : Subsingleton Cert.Pre_finite_inputs.S_.Idx :=
  ⟨fun _ _ => funext fun d => d.elim0⟩

/-- The pattern of +∞ denotes +∞. -/
theorem ofBits_inf : Ideal.ofBits .f32 0x7F800000#32 = (⊤ : EReal) := by
  simp [Ideal.ofBits, Ideal.ieee]

/-- A comparison bit "x < y" that is 1 says x < y. -/
theorem lt_of_cmp_olt {x y : EReal} (h : Ideal.cmp .olt x y = 1#1) : x < y := by
  by_contra hn
  rw [Ideal.cmp, decide_eq_false hn] at h
  exact absurd h (by decide)

/-- An extended real whose absolute value is below +∞ is a real. -/
theorem real_of_abs_lt_top {x : EReal} (h : max x (-x) < ⊤) : ∃ r : ℝ, x = (r : EReal) := by
  obtain ⟨h1, h2⟩ := max_lt_iff.mp h
  have ht : x ≠ ⊤ := h1.ne
  have hb : x ≠ ⊥ := fun e => h2.ne (EReal.neg_eq_top_iff.mpr e)
  exact ⟨x.toReal, (EReal.coe_toReal ht hb).symm⟩

/-- Under the precondition every entry of the feature matrix is a real. -/
theorem finite_of_pre (a0 : FVec Ideal Cert.Pre_finite_inputs.S4096x128 .f32) (a1 : IVec Cert.Pre_finite_inputs.S4096 32)
    (h : Cert.Pre_finite_inputs.fn (F := Ideal) a0 a1 = fun _ => 1#1) :
    ∀ i k, ∃ r : ℝ, Cert.Spec.featOf a0 i k = (r : EReal) := by
  intro i k
  have h0 := congrFun h ValueIdx.ix0
  dsimp only [Cert.Pre_finite_inputs.fn] at h0
  have he := Host.reduce_andi_all _ _ _ _ _ h0 (ValueIdx.ix2 i k)
  have hc : Ideal.cmp .olt (max (a0 (ValueIdx.ix2 i k)) (-(a0 (ValueIdx.ix2 i k)))) (Ideal.ofBits .f32 0x7F800000#32) = 1#1 := he
  rw [ofBits_inf] at hc
  exact real_of_abs_lt_top (lt_of_cmp_olt hc)

end Cert.Spec

end
-- ==== Proof.lean ====
/-
  The certificate of a supervised-contrastive loss kernel against its jnp reference.

  Both programs L2-normalise the 4096 × 128 feature matrix (each row divided by max(‖row‖, ε)), form the 4096 × 4096 matrix of
  inner products, put −∞ on its diagonal, and from each row i compute with M_i its maximum and S_i = Σ_j exp(s_ij − M_i):
    the kernel      −( Σ_j p_ij s_ij − (Σ_j p_ij)(M_i + log S_i) ) / (Σ_j p_ij + ε′)        (one fused pass per block of 256 rows),
    the reference    ( Σ_j [i ≠ j] ((s_ij − M_i) − log S_i) p_ij ) / (Σ_j p_ij + ε′)          (log-softmax materialised),
  where p_ij = 1 when rows i ≠ j carry the same label.  The kernel sums its rows and divides by 4096; the reference sums,
  negates and divides by 4096.  On finite features every s_ij off the diagonal, M_i and log S_i is a real number, the two row
  formulas differ by distributing Σ_j p_ij over (M_i + log S_i), and the results are equal as extended reals.

  The parts: the run of the kernel program at any float instance, with the array of normalised features read through two
  windows at half a share each (IdealBody, IdealLaunch, IdealFrame and their word-level twins); what its host operations
  and its region compute index by index (IdealHost, IdealRow, IdealBlocks); the reference's run read back (RefValue over the
  reference's operation list); the two formulas and their equality (Spec, SpecLaw); finiteness from the precondition
  (PreFinite).
-/
import proofs.«161315_j57664230916706_2_alg».proof.Defs
import proofs.«161315_j57664230916706_2_alg».proof.Proof.Gen.Kernel
import proofs.«161315_j57664230916706_2_alg».proof.Proof.Gen.KernelIdeal
import proofs.«161315_j57664230916706_2_alg».proof.Proof.Gen.ReferenceIdeal
import proofs.«161315_j57664230916706_2_alg».proof.Proof.Gen.Pre_finite_inputs
import proofs.«161315_j57664230916706_2_alg».proof.Proof.BitsFrame
import proofs.«161315_j57664230916706_2_alg».proof.Proof.IdealFrame
import proofs.«161315_j57664230916706_2_alg».proof.Proof.IdealBlocks
import proofs.«161315_j57664230916706_2_alg».proof.Proof.RefValue
import proofs.«161315_j57664230916706_2_alg».proof.Proof.SpecLaw
import proofs.«161315_j57664230916706_2_alg».proof.Proof.PreFinite
import Idealize.ShloMosaic.PureOps.IdealRules
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.Run.frame m ρ

/-- So does the idealised kernel program. -/
theorem frame_ki : Cert.frame_KernelIdeal := fun m ρ _ => Cert.KernelIdeal.Run.frame m ρ

/-- And the idealised reference. -/
theorem frame_ri : Cert.frame_ReferenceIdeal := fun m ρ _ => Cert.ReferenceIdeal.RefValue.frame m ρ

/-- The one rewrite of the idealisation: the fill constant stands for −∞. -/
theorem preserves : Cert.preserves_Kernel_KernelIdeal :=
  IdealRules.named_const.statement Cert.KernelIdeal.κ "neg_big" .f32 0xF149F2CA#32 ⊥ rfl

/-- On finite features the two programs return the same extended real. -/
theorem algebraic : Cert.algebraic_KernelIdeal_ReferenceIdeal := by
  intro m ρ m' ρ' hpre hagree
  refine ⟨fun c => fun _ => Cert.Spec.kerLoss (Cert.Spec.featOf (m ((c.tc : Thread Cert.KernelIdeal.nD Cert.KernelIdeal.τ).loc Cert.KernelIdeal.main_arg0)))
      (Cert.Spec.labOf (m ((c.tc : Thread Cert.KernelIdeal.nD Cert.KernelIdeal.τ).loc Cert.KernelIdeal.main_arg1))), ?_, ?_⟩
  · exact (θ_run Cert.KernelIdeal.defs _ _).mono (fun _ h c => ⟨(h c).1.trans (Cert.KernelIdeal.Run.W₄_kerLoss m c), (h c).2⟩)
      (Cert.KernelIdeal.Run.run_value m ρ)
  · refine (θ_run Cert.ReferenceIdeal.defs _ _).mono (fun _ h c => ⟨(h c).1.trans ?_, (h c).2⟩)
      (Cert.ReferenceIdeal.RefValue.run m' ρ')
    rw [(hagree c).1, (hagree c).2]
    funext _
    exact (Cert.Spec.kerLoss_eq_refLoss _ _ (Cert.Spec.finite_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
